-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048 : Shape := ⟨2, ![8, 2048]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S8x2048x1024 .f32) (main_arg2 : FVec F S8x2048 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S8x2048 : Shape := ⟨2, ![8, 2048]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S8x1x2048 : Shape := ⟨3, ![8, 1, 2048]⟩
abbrev S1x256x1024 : Shape := ⟨3, ![1, 256, 1024]⟩
abbrev S1x2048x1024 : Shape := ⟨3, ![1, 2048, 1024]⟩
abbrev S1x1x2048 : Shape := ⟨3, ![1, 1, 2048]⟩
abbrev S256x1024 : Shape := ⟨2, ![256, 1024]⟩
abbrev S2048x1024 : Shape := ⟨2, ![2048, 1024]⟩
abbrev S1x2048 : Shape := ⟨2, ![1, 2048]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 25
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S16384x1024, .f32⟩
  | .hbm, ⟨13, _⟩ => ⟨S16384x1024, .f32⟩
  | .hbm, ⟨14, _⟩ => ⟨S1x1024, .f32⟩
  | .hbm, ⟨15, _⟩ => ⟨S16384x1024, .bf16⟩
  | .hbm, ⟨16, _⟩ => ⟨S8x2048x1024, .bf16⟩
  | .hbm, ⟨17, _⟩ => ⟨S1x1024, .f32⟩
  | .hbm, ⟨18, _⟩ => ⟨S16384x1024, .bf16⟩
  | .hbm, ⟨19, _⟩ => ⟨S8x2048x1024, .bf16⟩
  | .hbm, ⟨20, _⟩ => ⟨S1x1024, .f32⟩
  | .hbm, ⟨21, _⟩ => ⟨S16384x1024, .bf16⟩
  | .hbm, ⟨22, _⟩ => ⟨S8x2048x1024, .bf16⟩
  | .hbm, ⟨23, _⟩ => ⟨S8x1x2048, .f32⟩
  | .hbm, ⟨24, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x2048x1024, .bf16⟩
  | .local _ .vmem, ⟨23, _⟩ => ⟨S1x2048x1024, .bf16⟩
  | .local _ .vmem, ⟨24, _⟩ => ⟨S1x1x2048, .f32⟩
  | .local _ .vmem, ⟨25, _⟩ => ⟨S1x1x2048, .f32⟩
  | .local _ .vmem, ⟨26, _⟩ => ⟨S1x256x1024, .f32⟩
  | .local _ .vmem, ⟨27, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

class Facts₀ : Prop where
  bitsLt_bf16_f32 : FTy.bits .bf16 < FTy.bits .f32
  shapeCasts_S8x2048x1024_S16384x1024 : S8x2048x1024.ShapeCasts S16384x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  shapeCasts_S8x2048_S8x1x2048 : S8x2048.ShapeCasts S8x1x2048
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  transposes_S2048x1024_p1_0_S1024x2048 : S2048x1024.Transposes [1, 0] S1024x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x1024.size a
  hwx1_3 : ∀ i : grid1.Coords, EltTy.bits .bf16 = 32 ∨ (Rect.block (s := S16384x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S16384x1024.size a
  hwx2_0 : ∀ i : grid2.Coords, EltTy.bits .f32 = 32 ∨ (Rect.block (s := S16384x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S16384x1024.size a
  hwx2_3 : ∀ i : grid2.Coords, EltTy.bits .bf16 = 32 ∨ (Rect.block (s := S16384x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S8x2048x1024.size a
  hwx3_0 : ∀ i : grid3.Coords, EltTy.bits .bf16 = 32 ∨ (Rect.block (s := S8x2048x1024) S1x256x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S8x2048x1024.size a
  hwx3_1 : ∀ i : grid3.Coords, EltTy.bits .bf16 = 32 ∨ (Rect.block (s := S8x2048x1024) S1x2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S8x2048x1024.size a
  hwx3_2 : ∀ i : grid3.Coords, EltTy.bits .bf16 = 32 ∨ (Rect.block (s := S8x2048x1024) S1x2048x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x2048.size a ≤ S8x1x2048.size a
  hwx3_3 : ∀ i : grid3.Coords, EltTy.bits .f32 = 32 ∨ (Rect.block (s := S8x1x2048) S1x1x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x256x1024.size a ≤ S8x2048x1024.size a
  hwx3_4 : ∀ i : grid3.Coords, EltTy.bits .f32 = 32 ∨ (Rect.block (s := S8x2048x1024) S1x256x1024.size (cc3_transform_4 i) (hinb3_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v7) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1x2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1x2048x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1x1x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v15) S1x256x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8x2048x1024 : Shape := ⟨3, ![8, 2048, 1024]⟩
abbrev S8x2048 : Shape := ⟨2, ![8, 2048]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048x2048 : Shape := ⟨3, ![8, 2048, 2048]⟩
abbrev S8x1x2048 : Shape := ⟨3, ![8, 1, 2048]⟩
abbrev S8x2048x1 : Shape := ⟨3, ![8, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S1x1x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x1x2048, .f32⟩
  | .hbm, ⟨29, _⟩ => ⟨S_, .f32⟩
  | .hbm, ⟨30, _⟩ => ⟨S8x1x2048, .f32⟩
  | .hbm, ⟨31, _⟩ => ⟨S8x1x2048, .f32⟩
  | .hbm, ⟨32, _⟩ => ⟨S_, .f32⟩
  | .hbm, ⟨33, _⟩ => ⟨S8x1x2048, .f32⟩
  | .hbm, ⟨34, _⟩ => ⟨S8x1x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  bcast_S8x2048_S8x1x2048_0_2 : S8x2048.BroadcastsInDim S8x1x2048 (![0, 2] : Fin 2 → Fin S8x1x2048.rank)
  bcast_S_S8x1x2048 : S_.BroadcastsInDim S8x1x2048 (![] : Fin 0 → Fin S8x1x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.RunValue.lean ====
/-
  The run of the four-call program with its result named.

  The program is four pipelined calls among stretches of host reshapes and casts. Every weakly fair execution
  terminates without a fault in a state where each buffer that outlives the calls holds the contents of the last
  boundary of the fold through the program: the launch memory pushed through each host stretch and each call's
  write-backs in turn. Read at the nine argument buffers this gives the arguments unchanged; read at the result buffer
  it gives the result as the last boundary's contents there, which the value modules then compute.
-/
import proofs.«138484_j83872121356514_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the nine arguments as launched. -/
theorem run : θ_run defs (onTc (τ := τ) (main (F := F))) ⟨m, fun _ => 0, ρ⟩ (fun r => ∀ c : Dev nD,
      r.2.mem ((c.tc : Thread nD τ).loc main_v15) = W8 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v15 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.RunValue

end
-- ==== Proof.Walk.lean ====
/-
  The contents of the buffers the four calls read, traced back through the program to the launch memory.

  The program is: a stretch of host casts and reshapes, the query projection, a reshape, the key projection, a reshape,
  the value projection, two reshapes, the attention call. Between consecutive boundaries a buffer either is written by
  exactly one host operation of the stretch (then it holds that operation's function of its operand), or is the
  output of the call (then it holds what the call's write-backs leave), or is untouched (a call leaves the arrays it
  only reads, and every buffer it has no window on, as it found them).
-/
import proofs.«138484_j83872121356514_1_alg».proof.Proof.Gen.KernelIdeal.Frame
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## After the first host stretch: the casts of the three weights, the flattenings of the two activations, the query bias as a row -/

theorem W1_v3 (c : Dev nD) : W1 m ρ c (Proc.devRef .tc main_v3) = shapeCast S16384x1024 (m ((c : Thread nD τ).loc main_arg0)) Facts₀.shapeCasts_S8x2048x1024_S16384x1024 := by
  dsimp only [W1, W0, hostOps0]; after_results <;> rfl
theorem W1_v4 (c : Dev nD) : W1 m ρ c (Proc.devRef .tc main_v4) = shapeCast S16384x1024 (m ((c : Thread nD τ).loc main_arg1)) Facts₀.shapeCasts_S8x2048x1024_S16384x1024 := by
  dsimp only [W1, W0, hostOps0]; after_results <;> rfl
theorem W1_v5 (c : Dev nD) : W1 m ρ c (Proc.devRef .tc main_v5) = shapeCast S1x1024 (m ((c : Thread nD τ).loc main_arg4)) Facts₀.shapeCasts_S1024_S1x1024 := by
  dsimp only [W1, W0, hostOps0]; after_results <;> rfl
theorem W1_v0 (c : Dev nD) : W1 m ρ c (Proc.devRef .tc main_v0) = truncf .bf16 (m ((c : Thread nD τ).loc main_arg3)) Facts₀.bitsLt_bf16_f32 := by
  dsimp only [W1, W0, hostOps0]; after_results <;> rfl
theorem W1_v1 (c : Dev nD) : W1 m ρ c (Proc.devRef .tc main_v1) = truncf .bf16 (m ((c : Thread nD τ).loc main_arg5)) Facts₀.bitsLt_bf16_f32 := by
  dsimp only [W1, W0, hostOps0]; after_results <;> rfl
theorem W1_v2 (c : Dev nD) : W1 m ρ c (Proc.devRef .tc main_v2) = truncf .bf16 (m ((c : Thread nD τ).loc main_arg7)) Facts₀.bitsLt_bf16_f32 := by
  dsimp only [W1, W0, hostOps0]; after_results <;> rfl
theorem W1_arg2 (c : Dev nD) : W1 m ρ c (Proc.devRef .tc main_arg2) = m ((c : Thread nD τ).loc main_arg2) := by
  dsimp only [W1, W0, hostOps0]; after_results <;> rfl
theorem W1_arg6 (c : Dev nD) : W1 m ρ c (Proc.devRef .tc main_arg6) = m ((c : Thread nD τ).loc main_arg6) := by
  dsimp only [W1, W0, hostOps0]; after_results <;> rfl
theorem W1_arg8 (c : Dev nD) : W1 m ρ c (Proc.devRef .tc main_arg8) = m ((c : Thread nD τ).loc main_arg8) := by
  dsimp only [W1, W0, hostOps0]; after_results <;> rfl

/-! ## Across the query projection -/

theorem W2_v6 (c : Dev nD) : W2 m ρ c (Proc.devRef .tc main_v6) = (dat0 (V1 m ρ) c).arrAt 3 cfg0.N := W2_arr m ρ c 3
theorem W2_v4 (c : Dev nD) : W2 m ρ c (Proc.devRef .tc main_v4) = W1 m ρ c (Proc.devRef .tc main_v4) :=
  W2_of_ne m ρ c main_v4 (by decide)
theorem W2_v1 (c : Dev nD) : W2 m ρ c (Proc.devRef .tc main_v1) = W1 m ρ c (Proc.devRef .tc main_v1) :=
  W2_of_ne m ρ c main_v1 (by decide)
theorem W2_v2 (c : Dev nD) : W2 m ρ c (Proc.devRef .tc main_v2) = W1 m ρ c (Proc.devRef .tc main_v2) :=
  W2_of_ne m ρ c main_v2 (by decide)
theorem W2_arg2 (c : Dev nD) : W2 m ρ c (Proc.devRef .tc main_arg2) = W1 m ρ c (Proc.devRef .tc main_arg2) :=
  W2_of_ne m ρ c main_arg2 (by decide)
theorem W2_arg6 (c : Dev nD) : W2 m ρ c (Proc.devRef .tc main_arg6) = W1 m ρ c (Proc.devRef .tc main_arg6) :=
  W2_of_ne m ρ c main_arg6 (by decide)
theorem W2_arg8 (c : Dev nD) : W2 m ρ c (Proc.devRef .tc main_arg8) = W1 m ρ c (Proc.devRef .tc main_arg8) :=
  W2_of_ne m ρ c main_arg8 (by decide)

/-! ## The second stretch: the query projection un-flattened, the key bias as a row -/

theorem W3_v7 (c : Dev nD) : W3 m ρ c (Proc.devRef .tc main_v7) = shapeCast S8x2048x1024 (W2 m ρ c (Proc.devRef .tc main_v6)) Facts₀.shapeCasts_S16384x1024_S8x2048x1024 := by
  dsimp only [W3, hostOps1]; after_results <;> rfl
theorem W3_v8 (c : Dev nD) : W3 m ρ c (Proc.devRef .tc main_v8) = shapeCast S1x1024 (W2 m ρ c (Proc.devRef .tc main_arg6)) Facts₀.shapeCasts_S1024_S1x1024 := by
  dsimp only [W3, hostOps1]; after_results <;> rfl
theorem W3_v4 (c : Dev nD) : W3 m ρ c (Proc.devRef .tc main_v4) = W2 m ρ c (Proc.devRef .tc main_v4) := by
  dsimp only [W3, hostOps1]; after_results <;> rfl
theorem W3_v1 (c : Dev nD) : W3 m ρ c (Proc.devRef .tc main_v1) = W2 m ρ c (Proc.devRef .tc main_v1) := by
  dsimp only [W3, hostOps1]; after_results <;> rfl
theorem W3_v2 (c : Dev nD) : W3 m ρ c (Proc.devRef .tc main_v2) = W2 m ρ c (Proc.devRef .tc main_v2) := by
  dsimp only [W3, hostOps1]; after_results <;> rfl
theorem W3_arg2 (c : Dev nD) : W3 m ρ c (Proc.devRef .tc main_arg2) = W2 m ρ c (Proc.devRef .tc main_arg2) := by
  dsimp only [W3, hostOps1]; after_results <;> rfl
theorem W3_arg8 (c : Dev nD) : W3 m ρ c (Proc.devRef .tc main_arg8) = W2 m ρ c (Proc.devRef .tc main_arg8) := by
  dsimp only [W3, hostOps1]; after_results <;> rfl

/-! ## Across the key projection (it reads the flattened key/value activations and leaves them in place) -/

theorem W4_v9 (c : Dev nD) : W4 m ρ c (Proc.devRef .tc main_v9) = (dat1 (V3 m ρ) c).arrAt 3 cfg1.N := W4_arr m ρ c 3
theorem W4_v4 (c : Dev nD) : W4 m ρ c (Proc.devRef .tc main_v4) = W3 m ρ c (Proc.devRef .tc main_v4) :=
  (W4_arr m ρ c 0).trans (((dat1 (V3 m ρ) c).arrAt_in 0 rfl cfg1.N).trans (A_eq1 (V3 m ρ) c 0))
theorem W4_v7 (c : Dev nD) : W4 m ρ c (Proc.devRef .tc main_v7) = W3 m ρ c (Proc.devRef .tc main_v7) :=
  W4_of_ne m ρ c main_v7 (by decide)
theorem W4_v2 (c : Dev nD) : W4 m ρ c (Proc.devRef .tc main_v2) = W3 m ρ c (Proc.devRef .tc main_v2) :=
  W4_of_ne m ρ c main_v2 (by decide)
theorem W4_arg2 (c : Dev nD) : W4 m ρ c (Proc.devRef .tc main_arg2) = W3 m ρ c (Proc.devRef .tc main_arg2) :=
  W4_of_ne m ρ c main_arg2 (by decide)
theorem W4_arg8 (c : Dev nD) : W4 m ρ c (Proc.devRef .tc main_arg8) = W3 m ρ c (Proc.devRef .tc main_arg8) :=
  W4_of_ne m ρ c main_arg8 (by decide)

/-! ## The third stretch: the key projection un-flattened, the value bias as a row -/

theorem W5_v10 (c : Dev nD) : W5 m ρ c (Proc.devRef .tc main_v10) = shapeCast S8x2048x1024 (W4 m ρ c (Proc.devRef .tc main_v9)) Facts₀.shapeCasts_S16384x1024_S8x2048x1024 := by
  dsimp only [W5, hostOps2]; after_results <;> rfl
theorem W5_v11 (c : Dev nD) : W5 m ρ c (Proc.devRef .tc main_v11) = shapeCast S1x1024 (W4 m ρ c (Proc.devRef .tc main_arg8)) Facts₀.shapeCasts_S1024_S1x1024 := by
  dsimp only [W5, hostOps2]; after_results <;> rfl
theorem W5_v7 (c : Dev nD) : W5 m ρ c (Proc.devRef .tc main_v7) = W4 m ρ c (Proc.devRef .tc main_v7) := by
  dsimp only [W5, hostOps2]; after_results <;> rfl
theorem W5_v4 (c : Dev nD) : W5 m ρ c (Proc.devRef .tc main_v4) = W4 m ρ c (Proc.devRef .tc main_v4) := by
  dsimp only [W5, hostOps2]; after_results <;> rfl
theorem W5_v2 (c : Dev nD) : W5 m ρ c (Proc.devRef .tc main_v2) = W4 m ρ c (Proc.devRef .tc main_v2) := by
  dsimp only [W5, hostOps2]; after_results <;> rfl
theorem W5_arg2 (c : Dev nD) : W5 m ρ c (Proc.devRef .tc main_arg2) = W4 m ρ c (Proc.devRef .tc main_arg2) := by
  dsimp only [W5, hostOps2]; after_results <;> rfl

/-! ## Across the value projection -/

theorem W6_v12 (c : Dev nD) : W6 m ρ c (Proc.devRef .tc main_v12) = (dat2 (V5 m ρ) c).arrAt 3 cfg2.N := W6_arr m ρ c 3
theorem W6_v7 (c : Dev nD) : W6 m ρ c (Proc.devRef .tc main_v7) = W5 m ρ c (Proc.devRef .tc main_v7) :=
  W6_of_ne m ρ c main_v7 (by decide)
theorem W6_v10 (c : Dev nD) : W6 m ρ c (Proc.devRef .tc main_v10) = W5 m ρ c (Proc.devRef .tc main_v10) :=
  W6_of_ne m ρ c main_v10 (by decide)
theorem W6_arg2 (c : Dev nD) : W6 m ρ c (Proc.devRef .tc main_arg2) = W5 m ρ c (Proc.devRef .tc main_arg2) :=
  W6_of_ne m ρ c main_arg2 (by decide)

/-! ## The last stretch: the value projection un-flattened, the mask given its unit middle axis -/

theorem W7_v13 (c : Dev nD) : W7 m ρ c (Proc.devRef .tc main_v13) = shapeCast S8x2048x1024 (W6 m ρ c (Proc.devRef .tc main_v12)) Facts₀.shapeCasts_S16384x1024_S8x2048x1024 := by
  dsimp only [W7, hostOps3]; after_results <;> rfl
theorem W7_v14 (c : Dev nD) : W7 m ρ c (Proc.devRef .tc main_v14) = shapeCast S8x1x2048 (W6 m ρ c (Proc.devRef .tc main_arg2)) Facts₀.shapeCasts_S8x2048_S8x1x2048 := by
  dsimp only [W7, hostOps3]; after_results <;> rfl
theorem W7_v7 (c : Dev nD) : W7 m ρ c (Proc.devRef .tc main_v7) = W6 m ρ c (Proc.devRef .tc main_v7) := by
  dsimp only [W7, hostOps3]; after_results <;> rfl
theorem W7_v10 (c : Dev nD) : W7 m ρ c (Proc.devRef .tc main_v10) = W6 m ρ c (Proc.devRef .tc main_v10) := by
  dsimp only [W7, hostOps3]; after_results <;> rfl

/-! ## The attention call's output -/

theorem W8_v15 (c : Dev nD) : W8 m ρ c (Proc.devRef .tc main_v15) = (dat3 (V7 m ρ) c).arrAt 4 cfg3.N := W8_arr m ρ c 4

end Cert.KernelIdeal.Walk

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.Spec.lean ====
/-
  Single-head cross attention over [8, 2048, 1024] activations, as ONE function of the argument arrays, entry by entry
  on the extended reals.

  With X the query activations, Y the key/value activations, μ the key mask, and (W, β) a weight matrix and bias:
    proj X W β (b, s, d)      = (∑ h, X (b, s, h) · W (h, d)) + β d
    score (b, q, k)           = (∑ d, Q (b, q, d) · K (b, k, d)) · c + (1 − μ (b, k)) · (−10000)
    rowMax S                  = max (−∞) (the maximum over k of S k, taken from −∞)
    prob S k                  = exp (S k − rowMax S) / ∑ k', exp (S k' − rowMax S)
    attn (b, q, d)            = ∑ k, prob (score (b, q, ·)) k · V (b, k, d)
  and the whole map is attn at Q = proj X Wq βq, K = proj Y Wk βk, V = proj Y Wv βv.

  The three float constants 1, −10000 and −∞ are kept as their binary words: the same word stands on both sides of
  every equation here, so none is ever evaluated. The scale c is a parameter: one program writes it as the word of
  1/32, the other as 1 / sqrt 1024, and that these are one extended real is proved beside this module.
-/
import Idealize.ShloMosaic.PureOps.Ideal.Laws
import Idealize.ShloMosaic.Lib.ValueIdx

noncomputable section

open scoped BigOperators

namespace Cert.Attn

open Idealize.ShloMosaic Idealize.ShloMosaic.ValueIdx

/-- Activations [8, 2048, 1024], a weight matrix [1024, 1024], a bias [1024]. -/
abbrev Act : Type := (⟨3, ![8, 2048, 1024]⟩ : Shape).Idx → EReal
abbrev Wgt : Type := (⟨2, ![1024, 1024]⟩ : Shape).Idx → EReal
abbrev Bias : Type := (⟨1, ![1024]⟩ : Shape).Idx → EReal

/-- The words of 1, −10000 and −∞. -/
abbrev one : EReal := Ideal.ofBits .f32 0x3F800000#32
abbrev negTenK : EReal := Ideal.ofBits .f32 0xC61C4000#32
abbrev negInf : EReal := Ideal.ofBits .f32 0xFF800000#32

/-- The scale as the kernel writes it (the word of 1/32) and as the reference computes it (1 / sqrt 1024). -/
abbrev scaleWord : EReal := Ideal.ofBits .f32 0x3D000000#32
abbrev scaleSqrt : EReal := Ideal.div (Ideal.ofBits .f32 0x3F800000#32) (Ideal.sqrt (Ideal.ofBits .f32 0x44800000#32))

/-- One entry of a linear projection: row (b, s) of the activations against column d of the weights, plus the bias. -/
def projAt (X : Act) (W : Wgt) (β : Bias) (b : Fin 8) (s : Fin 2048) (d : Fin 1024) : EReal :=
  (∑ h : Fin 1024, X (ix3 b s h) * W (ix2 h d)) + β (ix1 d)

/-- The projection as an array. -/
def proj (X : Act) (W : Wgt) (β : Bias) : Act := fun i => projAt X W β (i 0) (i 1) (i 2)

theorem proj_ix3 (X : Act) (W : Wgt) (β : Bias) (b : Fin 8) (s : Fin 2048) (d : Fin 1024) :
    proj X W β (ix3 b s d) = projAt X W β b s d := rfl

/-- One masked, scaled score: query row q against key row k of batch b. -/
def scoreAt (c : EReal) (Q K : Act) (μ : Fin 8 → Fin 2048 → EReal) (b : Fin 8) (q k : Fin 2048) : EReal :=
  (∑ d : Fin 1024, Q (ix3 b q d) * K (ix3 b k d)) * c + (one - μ b k) * negTenK

/-- A row's maximum, folded from −∞, then once more against −∞ (both programs take it this way). -/
def rowMax (S : Fin 2048 → EReal) : EReal :=
  max negInf ((Finset.univ : Finset (Fin 2048)).fold max negInf S)

/-- A row's exponentials, shifted by its maximum. -/
def expAt (S : Fin 2048 → EReal) (k : Fin 2048) : EReal := Ideal.exp (S k - rowMax S)

/-- One softmax weight of a row of scores. -/
def probAt (S : Fin 2048 → EReal) (k : Fin 2048) : EReal :=
  Ideal.div (expAt S k) (∑ k' : Fin 2048, expAt S k')

/-- One entry of the attention output: the softmax weights of score row (b, q) against column d of the values. -/
def attnAt (c : EReal) (Q K V : Act) (μ : Fin 8 → Fin 2048 → EReal) (b : Fin 8) (q : Fin 2048) (d : Fin 1024) : EReal :=
  ∑ k : Fin 2048, probAt (scoreAt c Q K μ b q) k * V (ix3 b k d)

/-- The attention output as an array. -/
def attn (c : EReal) (Q K V : Act) (μ : Fin 8 → Fin 2048 → EReal) : Act :=
  fun i => attnAt c Q K V μ (i 0) (i 1) (i 2)

theorem attn_ix3 (c : EReal) (Q K V : Act) (μ : Fin 8 → Fin 2048 → EReal) (b : Fin 8) (q : Fin 2048) (d : Fin 1024) :
    attn c Q K V μ (ix3 b q d) = attnAt c Q K V μ b q d := rfl

/-- The projection on activations flattened to [16384, 1024] rows, the bias as a [1, 1024] row: what one projection
    call leaves, row j₀ of the flat activations against column j₁ of the weights, plus the bias at j₁. -/
def linFlatAt (X : (⟨2, ![16384, 1024]⟩ : Shape).Idx → EReal) (W : Wgt) (β : (⟨2, ![1, 1024]⟩ : Shape).Idx → EReal)
    (r : Fin 16384) (d : Fin 1024) : EReal :=
  (∑ h : Fin 1024, X (ix2 r h) * W (ix2 h d)) + β (ix2 (0 : Fin 1) d)

def linFlat (X : (⟨2, ![16384, 1024]⟩ : Shape).Idx → EReal) (W : Wgt) (β : (⟨2, ![1, 1024]⟩ : Shape).Idx → EReal) :
    (⟨2, ![16384, 1024]⟩ : Shape).Idx → EReal := fun j => linFlatAt X W β (j 0) (j 1)

theorem linFlat_ix2 (X : (⟨2, ![16384, 1024]⟩ : Shape).Idx → EReal) (W : Wgt) (β : (⟨2, ![1, 1024]⟩ : Shape).Idx → EReal)
    (r : Fin 16384) (d : Fin 1024) : linFlat X W β (ix2 r d) = linFlatAt X W β r d := rfl

/-- The whole map: the three projections, then attention under the key mask. -/
def crossAttn (c : EReal) (X Y : Act) (μ : Fin 8 → Fin 2048 → EReal) (Wq : Wgt) (βq : Bias) (Wk : Wgt) (βk : Bias)
    (Wv : Wgt) (βv : Bias) : Act :=
  attn c (proj X Wq βq) (proj Y Wk βk) (proj Y Wv βv) μ

end Cert.Attn

end
-- ==== Proof.LinPay.lean ====
/-
  The projection kernel's stored value, read at one entry.

  The body multiplies a [512, 1024] block of activation rows by the whole [1024, 1024] weight matrix into a zero
  accumulator and adds the [1, 1024] bias row broadcast over the 512 rows; the changes of float format on the way
  are the identity on extended reals. So entry (r, d) of what it stores is the sum over h of x (r, h) · w (h, d),
  plus the bias at (0, d). The three projection kernels have the same body, hence the same value.
-/
import proofs.«138484_j83872121356514_1_alg».proof.Proof.Gen.KernelIdeal.Skeleton
import proofs.«138484_j83872121356514_1_alg».proof.Proof.LibMatmulAt
import proofs.«138484_j83872121356514_1_alg».proof.Proof.Spec
import Idealize.ShloMosaic.Lib.Pipeline.Value
import Idealize.ShloMosaic.Lib.ValueLayout

noncomputable section

open scoped BigOperators

namespace Cert.KernelIdeal.LinValue

open Cert.KernelIdeal Idealize.ShloMosaic Idealize.ShloMosaic.ValueIdx

/-! ## Where the matrix product's two operand indices sit -/

/-- The left operand is read at the result's row … -/
theorem dot_lhs_row (i : S512x1024.Idx) (q : dot_S512x1024_S1024x1024_S512x1024_1_0_0_1_n_n.contr.Idx) :
    (dot_S512x1024_S1024x1024_S512x1024_1_0_0_1_n_n.lhsIdx i q (0 : Fin 2)).val = (i (0 : Fin 2)).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- … and the contraction position; -/
theorem dot_lhs_col (i : S512x1024.Idx) (q : dot_S512x1024_S1024x1024_S512x1024_1_0_0_1_n_n.contr.Idx) :
    (dot_S512x1024_S1024x1024_S512x1024_1_0_0_1_n_n.lhsIdx i q (1 : Fin 2)).val = (q ⟨0, by decide⟩).val :=
  dot_S512x1024_S1024x1024_S512x1024_1_0_0_1_n_n.lhsIdx_val_of_single rfl i q

/-- the right operand at the contraction position … -/
theorem dot_rhs_row (i : S512x1024.Idx) (q : dot_S512x1024_S1024x1024_S512x1024_1_0_0_1_n_n.contr.Idx) :
    (dot_S512x1024_S1024x1024_S512x1024_1_0_0_1_n_n.rhsIdx i q (0 : Fin 2)).val = (q ⟨0, by decide⟩).val :=
  dot_S512x1024_S1024x1024_S512x1024_1_0_0_1_n_n.rhsIdx_val_of_single rfl i q

/-- … and the result's column. -/
theorem dot_rhs_col (i : S512x1024.Idx) (q : dot_S512x1024_S1024x1024_S512x1024_1_0_0_1_n_n.contr.Idx) :
    (dot_S512x1024_S1024x1024_S512x1024_1_0_0_1_n_n.rhsIdx i q (1 : Fin 2)).val = (i (1 : Fin 2)).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-! ## The stored value at an entry -/

/-- Entry (r, d) of the first projection kernel's stored value. -/
theorem k0_pay1_at (x0 : Vec Ideal S512x1024 .f32) (x3 : Vec Ideal S1024x1024 .bf16) (x6 : Vec Ideal S1x1024 .f32)
    (r : Fin 512) (d : Fin 1024) :
    Gen.k0_pay1 (F := Ideal) x0 x3 x6 (ix2 r d)
      = (∑ h : Fin 1024, x0 (ix2 r h) * x3 (ix2 h d)) + x6 (ix2 (0 : Fin 1) d) := by
  unfold Gen.k0_pay1
  simp only [shapeCast_self]
  refine (truncf_apply (ψ := .bf16) (addf _ _) Gen.bitsLt_bf16_f32 (ix2 r d)).trans ?_
  refine (addf_apply _ _ (ix2 r d)).trans ?_
  refine congrArg₂ (· + ·) ?_ ?_
  · exact Idealize.ShloMosaic.MatmulAt.matmul_zero_ix2 dot_S512x1024_S1024x1024_S512x1024_1_0_0_1_n_n rfl rfl
      dot_lhs_row dot_lhs_col dot_rhs_row dot_rhs_col none _ _ r d
  · exact broadcastTo_1b_ab_apply _ _ r d

/-- The three projection kernels store one and the same function of their loads. -/
theorem k1_pay1_eq : Gen.k1_pay1 (F := Ideal) = Gen.k0_pay1 (F := Ideal) := rfl

theorem k2_pay1_eq : Gen.k2_pay1 (F := Ideal) = Gen.k0_pay1 (F := Ideal) := rfl

/-- Entry (r, d) of the second projection kernel's stored value. -/
theorem k1_pay1_at (x0 : Vec Ideal S512x1024 .f32) (x3 : Vec Ideal S1024x1024 .bf16) (x6 : Vec Ideal S1x1024 .f32)
    (r : Fin 512) (d : Fin 1024) :
    Gen.k1_pay1 (F := Ideal) x0 x3 x6 (ix2 r d)
      = (∑ h : Fin 1024, x0 (ix2 r h) * x3 (ix2 h d)) + x6 (ix2 (0 : Fin 1) d) :=
  (congrFun (congrFun (congrFun (congrFun k1_pay1_eq x0) x3) x6) (ix2 r d)).trans (k0_pay1_at x0 x3 x6 r d)

/-- Entry (r, d) of the third projection kernel's stored value. -/
theorem k2_pay1_at (x0 : Vec Ideal S512x1024 .f32) (x3 : Vec Ideal S1024x1024 .bf16) (x6 : Vec Ideal S1x1024 .f32)
    (r : Fin 512) (d : Fin 1024) :
    Gen.k2_pay1 (F := Ideal) x0 x3 x6 (ix2 r d)
      = (∑ h : Fin 1024, x0 (ix2 r h) * x3 (ix2 h d)) + x6 (ix2 (0 : Fin 1) d) :=
  (congrFun (congrFun (congrFun (congrFun k2_pay1_eq x0) x3) x6) (ix2 r d)).trans (k0_pay1_at x0 x3 x6 r d)

/-! ## A stored block as a block of the flat projection

  When the activation block holds rows n · 512 … n · 512 + 511 of a [16384, 1024] array X, and the weight and bias
  blocks are the whole weight matrix W and bias row β, entry y of the stored block is the flat projection of
  (X, W, β) at row n · 512 + y₀, column y₁. -/

/-- The first projection kernel's stored block is the block of the flat projection at the same rows. -/
theorem k0_pay1_block (X : S16384x1024.Idx → EReal) (W : Cert.Attn.Wgt) (β : S1x1024.Idx → EReal)
    (x0 : Vec Ideal S512x1024 .f32) (x1 : Vec Ideal S1024x1024 .bf16) (x2 : Vec Ideal S1x1024 .f32) (n : Nat)
    (i : S16384x1024.Idx) (y : S512x1024.Idx)
    (hi0 : (i 0).val = n * 512 + (y 0).val) (hi1 : (i 1).val = (y 1).val)
    (h0 : ∀ (y' : S512x1024.Idx) (k : S16384x1024.Idx), (k 0).val = n * 512 + (y' 0).val → (k 1).val = (y' 1).val →
      x0 y' = X k)
    (h1 : x1 = W) (h2 : x2 = β) :
    Gen.k0_pay1 (F := Ideal) x0 x1 x2 y = Cert.Attn.linFlat X W β i := by
  obtain ⟨r, d, rfl⟩ : ∃ (r : Fin 512) (d : Fin 1024), y = ix2 r d := ⟨y 0, y 1, eq_ix2 y⟩
  obtain ⟨p, q, rfl⟩ : ∃ (p : Fin 16384) (q : Fin 1024), i = ix2 p q := ⟨i 0, i 1, eq_ix2 i⟩
  have hq : q = d := Fin.ext hi1
  subst hq
  subst h1 h2
  rw [k0_pay1_at, Cert.Attn.linFlat_ix2]
  unfold Cert.Attn.linFlatAt
  exact congrArg₂ (· + ·)
    (Finset.sum_congr rfl fun h _ => congrArg (· * x1 (ix2 h q)) (h0 (ix2 r h) (ix2 p h) hi0 rfl)) rfl

/-- The same for the second projection kernel. -/
theorem k1_pay1_block (X : S16384x1024.Idx → EReal) (W : Cert.Attn.Wgt) (β : S1x1024.Idx → EReal)
    (x0 : Vec Ideal S512x1024 .f32) (x1 : Vec Ideal S1024x1024 .bf16) (x2 : Vec Ideal S1x1024 .f32) (n : Nat)
    (i : S16384x1024.Idx) (y : S512x1024.Idx)
    (hi0 : (i 0).val = n * 512 + (y 0).val) (hi1 : (i 1).val = (y 1).val)
    (h0 : ∀ (y' : S512x1024.Idx) (k : S16384x1024.Idx), (k 0).val = n * 512 + (y' 0).val → (k 1).val = (y' 1).val →
      x0 y' = X k)
    (h1 : x1 = W) (h2 : x2 = β) :
    Gen.k1_pay1 (F := Ideal) x0 x1 x2 y = Cert.Attn.linFlat X W β i :=
  (congrFun (congrFun (congrFun (congrFun k1_pay1_eq x0) x1) x2) y).trans
    (k0_pay1_block X W β x0 x1 x2 n i y hi0 hi1 h0 h1 h2)

/-- The same for the third projection kernel. -/
theorem k2_pay1_block (X : S16384x1024.Idx → EReal) (W : Cert.Attn.Wgt) (β : S1x1024.Idx → EReal)
    (x0 : Vec Ideal S512x1024 .f32) (x1 : Vec Ideal S1024x1024 .bf16) (x2 : Vec Ideal S1x1024 .f32) (n : Nat)
    (i : S16384x1024.Idx) (y : S512x1024.Idx)
    (hi0 : (i 0).val = n * 512 + (y 0).val) (hi1 : (i 1).val = (y 1).val)
    (h0 : ∀ (y' : S512x1024.Idx) (k : S16384x1024.Idx), (k 0).val = n * 512 + (y' 0).val → (k 1).val = (y' 1).val →
      x0 y' = X k)
    (h1 : x1 = W) (h2 : x2 = β) :
    Gen.k2_pay1 (F := Ideal) x0 x1 x2 y = Cert.Attn.linFlat X W β i :=
  (congrFun (congrFun (congrFun (congrFun k2_pay1_eq x0) x1) x2) y).trans
    (k0_pay1_block X W β x0 x1 x2 n i y hi0 hi1 h0 h1 h2)

end Cert.KernelIdeal.LinValue

end
-- ==== Proof.Lin0.lean ====
/-
  Projection region 0: its output array is the flat projection of its three input arrays.

  The region runs the projection kernel over 32 grid points. Point t reads rows t · 512 … t · 512 + 511 of the
  [16384, 1024] activations, the whole weight matrix and the whole bias row, and writes back rows
  t · 512 … t · 512 + 511 of the output. What it writes is the stored block of the kernel, which is the block of the
  flat projection at the same rows; the 32 row blocks cover the output (row r lies in block r / 512); so the output
  array after the region is the flat projection, whatever the arrays held when the region was entered.
-/
import proofs.«138484_j83872121356514_1_alg».proof.Proof.Gen.KernelIdeal.Frame
import proofs.«138484_j83872121356514_1_alg».proof.Proof.LinPay
import proofs.«138484_j83872121356514_1_alg».proof.Proof.Spec
import Idealize.ShloMosaic.Lib.Pipeline.Value

noncomputable section

open scoped BigOperators

namespace Cert.KernelIdeal.LinValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's accesses start at the origin of their buffers. -/
theorem origin0 : (![0, 0] : Fin 2 → Nat) = fun _ => 0 := funext fun a => by fin_cases a <;> rfl

/-- The index maps over the grid: the activation and output windows are at block row t, column block 0; the weight
    and bias windows stay at block (0, 0). -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the flat projection of the arrays the region found. -/
theorem flushed_eq0 (c : Dev nD) (t : Fin cfg0.N) :
    (Gen.dat0 (F := Ideal) V c).flushed 3 t
      = ((cfg0.win 3).blk t).view.read (Elt Ideal) (Cert.Attn.linFlat (V c main_v3) (V c main_v0) (V c main_v5)) := by
  show (cfg0.win 3).cut (grid0.coords t) ((Gen.dat0 (F := Ideal) V c).after 3 t) = _
  rw [Gen.after0_3]
  unfold Gen.out0_3
  rw [View.canon_unit_zero origin0]
  simp only [View.ld_unit_zero (S := S512x1024) origin0, View.ld_unit_zero (S := S1024x1024) origin0,
    View.ld_unit_zero (S := S1x1024) origin0]
  funext j
  show Gen.k0_pay1 (F := Ideal) (Gen.iblk0 V c 0 t) (Gen.iblk0 V c 1 t) (Gen.iblk0 V c 2 t) j
    = Cert.Attn.linFlat (V c main_v3) (V c main_v0) (V c main_v5) (((cfg0.win 3).blk t).view.emb j)
  obtain ⟨e00, e01, e10, e11, e20, e21, e30, e31⟩ := block_index0 t
  refine k0_pay1_block (V c main_v3) (V c main_v0) (V c main_v5) (Gen.iblk0 V c 0 t) (Gen.iblk0 V c 1 t)
    (Gen.iblk0 V c 2 t) t.val (((cfg0.win 3).blk t).view.emb j) j ?_ ?_ ?_ ?_ ?_
  · show win0_3.index t (0 : Fin 2) * 512 + 1 * (j 0).val = t.val * 512 + (j 0).val
    rw [e30]; omega
  · show win0_3.index t (1 : Fin 2) * 1024 + 1 * (j 1).val = (j 1).val
    rw [e31]; omega
  · intro y' k hk0 hk1
    show V c main_v3 (((cfg0.win 0).blk t).view.emb y') = V c main_v3 k
    refine congrArg (V c main_v3) (funext fun a => Fin.ext ?_)
    match a with
    | ⟨0, _⟩ =>
      show win0_0.index t (0 : Fin 2) * 512 + 1 * (y' 0).val = (k 0).val
      rw [e00, hk0]; omega
    | ⟨1, _⟩ =>
      show win0_0.index t (1 : Fin 2) * 1024 + 1 * (y' 1).val = (k 1).val
      rw [e01, hk1]; omega
  · funext y'
    show V c main_v0 (((cfg0.win 1).blk t).view.emb y') = V c main_v0 y'
    refine congrArg (V c main_v0) (funext fun a => Fin.ext ?_)
    match a with
    | ⟨0, _⟩ =>
      show win0_1.index t (0 : Fin 2) * 1024 + 1 * (y' 0).val = (y' 0).val
      rw [e10]; omega
    | ⟨1, _⟩ =>
      show win0_1.index t (1 : Fin 2) * 1024 + 1 * (y' 1).val = (y' 1).val
      rw [e11]; omega
  · funext y'
    show V c main_v5 (((cfg0.win 2).blk t).view.emb y') = V c main_v5 y'
    refine congrArg (V c main_v5) (funext fun a => Fin.ext ?_)
    match a with
    | ⟨0, _⟩ =>
      show win0_2.index t (0 : Fin 2) * 1 + 1 * (y' 0).val = (y' 0).val
      rw [e20]; omega
    | ⟨1, _⟩ =>
      show win0_2.index t (1 : Fin 2) * 1024 + 1 * (y' 1).val = (y' 1).val
      rw [e21]; omega

/-- An index of the output array is in point t's block iff each coordinate is in the block's range on its axis. -/
theorem mem_block0 (t : Fin cfg0.N) (i : S16384x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v6).slice (win0_3.rect t)).set ↔ _
  rw [View.set_slice_whole, Rect.mem_set_unit]
  exact Iff.rfl

/-- Every index of the output array is in some point's block: row r is in block r / 512. -/
theorem covered0 (i : S16384x1024.Idx) :
    ∃ t : Fin cfg0.N, (cfg0.win 3).flush t = true ∧ i ∈ ((cfg0.win 3).blk t).view.set := by
  have hN : grid0.N = 32 := Gen.N_0
  have hi0 : (i 0).val < 16384 := idx2_lt0 i
  have hi1 : (i 1).val < 1024 := idx2_lt1 i
  have ht : (i 0).val / 512 < grid0.N := by rw [hN]; omega
  obtain ⟨-, -, -, -, -, -, e30, e31⟩ := block_index0 ⟨(i 0).val / 512, ht⟩
  refine ⟨⟨(i 0).val / 512, ht⟩, Gen.flush0_3 _, ?_⟩
  rw [mem_block0]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e30]
    show (i 0).val / 512 * 512 ≤ (i 0).val ∧ (i 0).val < (i 0).val / 512 * 512 + 512
    omega
  | ⟨1, _⟩ =>
    show win0_3.index ⟨(i 0).val / 512, ht⟩ (1 : Fin 2) * 1024 ≤ (i 1).val
      ∧ (i 1).val < win0_3.index ⟨(i 0).val / 512, ht⟩ (1 : Fin 2) * 1024 + 1024
    rw [e31]
    omega

/-- The output array after the region is the flat projection of the region's input arrays. -/
theorem final0 (c : Dev nD) :
    (Gen.dat0 (F := Ideal) V c).arrAt 3 cfg0.N = Cert.Attn.linFlat (V c main_v3) (V c main_v0) (V c main_v5) :=
  (Gen.dat0 (F := Ideal) V c).arrAt_eq_of_cover 3 (Cert.Attn.linFlat (V c main_v3) (V c main_v0) (V c main_v5))
    (fun t _ => flushed_eq0 V c t) covered0

end Cert.KernelIdeal.LinValue

end
-- ==== Proof.Lin1.lean ====
/-
  Projection region 1: its output array is the flat projection of its three input arrays.

  The region runs the projection kernel over 32 grid points. Point t reads rows t · 512 … t · 512 + 511 of the
  [16384, 1024] activations, the whole weight matrix and the whole bias row, and writes back rows
  t · 512 … t · 512 + 511 of the output. What it writes is the stored block of the kernel, which is the block of the
  flat projection at the same rows; the 32 row blocks cover the output (row r lies in block r / 512); so the output
  array after the region is the flat projection, whatever the arrays held when the region was entered.
-/
import proofs.«138484_j83872121356514_1_alg».proof.Proof.Gen.KernelIdeal.Frame
import proofs.«138484_j83872121356514_1_alg».proof.Proof.LinPay
import proofs.«138484_j83872121356514_1_alg».proof.Proof.Spec
import Idealize.ShloMosaic.Lib.Pipeline.Value

noncomputable section

open scoped BigOperators

namespace Cert.KernelIdeal.LinValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's accesses start at the origin of their buffers. -/
theorem origin1 : (![0, 0] : Fin 2 → Nat) = fun _ => 0 := funext fun a => by fin_cases a <;> rfl

/-- The index maps over the grid: the activation and output windows are at block row t, column block 0; the weight
    and bias windows stay at block (0, 0). -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the flat projection of the arrays the region found. -/
theorem flushed_eq1 (c : Dev nD) (t : Fin cfg1.N) :
    (Gen.dat1 (F := Ideal) V c).flushed 3 t
      = ((cfg1.win 3).blk t).view.read (Elt Ideal) (Cert.Attn.linFlat (V c main_v4) (V c main_v1) (V c main_v8)) := by
  show (cfg1.win 3).cut (grid1.coords t) ((Gen.dat1 (F := Ideal) V c).after 3 t) = _
  rw [Gen.after1_3]
  unfold Gen.out1_3
  rw [View.canon_unit_zero origin1]
  simp only [View.ld_unit_zero (S := S512x1024) origin1, View.ld_unit_zero (S := S1024x1024) origin1,
    View.ld_unit_zero (S := S1x1024) origin1]
  funext j
  show Gen.k1_pay1 (F := Ideal) (Gen.iblk1 V c 0 t) (Gen.iblk1 V c 1 t) (Gen.iblk1 V c 2 t) j
    = Cert.Attn.linFlat (V c main_v4) (V c main_v1) (V c main_v8) (((cfg1.win 3).blk t).view.emb j)
  obtain ⟨e00, e01, e10, e11, e20, e21, e30, e31⟩ := block_index1 t
  refine k1_pay1_block (V c main_v4) (V c main_v1) (V c main_v8) (Gen.iblk1 V c 0 t) (Gen.iblk1 V c 1 t)
    (Gen.iblk1 V c 2 t) t.val (((cfg1.win 3).blk t).view.emb j) j ?_ ?_ ?_ ?_ ?_
  · show win1_3.index t (0 : Fin 2) * 512 + 1 * (j 0).val = t.val * 512 + (j 0).val
    rw [e30]; omega
  · show win1_3.index t (1 : Fin 2) * 1024 + 1 * (j 1).val = (j 1).val
    rw [e31]; omega
  · intro y' k hk0 hk1
    show V c main_v4 (((cfg1.win 0).blk t).view.emb y') = V c main_v4 k
    refine congrArg (V c main_v4) (funext fun a => Fin.ext ?_)
    match a with
    | ⟨0, _⟩ =>
      show win1_0.index t (0 : Fin 2) * 512 + 1 * (y' 0).val = (k 0).val
      rw [e00, hk0]; omega
    | ⟨1, _⟩ =>
      show win1_0.index t (1 : Fin 2) * 1024 + 1 * (y' 1).val = (k 1).val
      rw [e01, hk1]; omega
  · funext y'
    show V c main_v1 (((cfg1.win 1).blk t).view.emb y') = V c main_v1 y'
    refine congrArg (V c main_v1) (funext fun a => Fin.ext ?_)
    match a with
    | ⟨0, _⟩ =>
      show win1_1.index t (0 : Fin 2) * 1024 + 1 * (y' 0).val = (y' 0).val
      rw [e10]; omega
    | ⟨1, _⟩ =>
      show win1_1.index t (1 : Fin 2) * 1024 + 1 * (y' 1).val = (y' 1).val
      rw [e11]; omega
  · funext y'
    show V c main_v8 (((cfg1.win 2).blk t).view.emb y') = V c main_v8 y'
    refine congrArg (V c main_v8) (funext fun a => Fin.ext ?_)
    match a with
    | ⟨0, _⟩ =>
      show win1_2.index t (0 : Fin 2) * 1 + 1 * (y' 0).val = (y' 0).val
      rw [e20]; omega
    | ⟨1, _⟩ =>
      show win1_2.index t (1 : Fin 2) * 1024 + 1 * (y' 1).val = (y' 1).val
      rw [e21]; omega

/-- An index of the output array is in point t's block iff each coordinate is in the block's range on its axis. -/
theorem mem_block1 (t : Fin cfg1.N) (i : S16384x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v9).slice (win1_3.rect t)).set ↔ _
  rw [View.set_slice_whole, Rect.mem_set_unit]
  exact Iff.rfl

/-- Every index of the output array is in some point's block: row r is in block r / 512. -/
theorem covered1 (i : S16384x1024.Idx) :
    ∃ t : Fin cfg1.N, (cfg1.win 3).flush t = true ∧ i ∈ ((cfg1.win 3).blk t).view.set := by
  have hN : grid1.N = 32 := Gen.N_1
  have hi0 : (i 0).val < 16384 := idx2_lt0 i
  have hi1 : (i 1).val < 1024 := idx2_lt1 i
  have ht : (i 0).val / 512 < grid1.N := by rw [hN]; omega
  obtain ⟨-, -, -, -, -, -, e30, e31⟩ := block_index1 ⟨(i 0).val / 512, ht⟩
  refine ⟨⟨(i 0).val / 512, ht⟩, Gen.flush1_3 _, ?_⟩
  rw [mem_block1]
  intro a
  match a with
  | ⟨0, _⟩ =>
    show win1_3.index ⟨(i 0).val / 512, ht⟩ (0 : Fin 2) * 512 ≤ (i 0).val
      ∧ (i 0).val < win1_3.index ⟨(i 0).val / 512, ht⟩ (0 : Fin 2) * 512 + 512
    rw [e30]
    show (i 0).val / 512 * 512 ≤ (i 0).val ∧ (i 0).val < (i 0).val / 512 * 512 + 512
    omega
  | ⟨1, _⟩ =>
    show win1_3.index ⟨(i 0).val / 512, ht⟩ (1 : Fin 2) * 1024 ≤ (i 1).val
      ∧ (i 1).val < win1_3.index ⟨(i 0).val / 512, ht⟩ (1 : Fin 2) * 1024 + 1024
    rw [e31]
    omega

/-- The output array after the region is the flat projection of the region's input arrays. -/
theorem final1 (c : Dev nD) :
    (Gen.dat1 (F := Ideal) V c).arrAt 3 cfg1.N = Cert.Attn.linFlat (V c main_v4) (V c main_v1) (V c main_v8) :=
  (Gen.dat1 (F := Ideal) V c).arrAt_eq_of_cover 3 (Cert.Attn.linFlat (V c main_v4) (V c main_v1) (V c main_v8))
    (fun t _ => flushed_eq1 V c t) covered1

end Cert.KernelIdeal.LinValue

end
-- ==== Proof.Lin2.lean ====
/-
  Projection region 2: its output array is the flat projection of its three input arrays.

  The region runs the projection kernel over 32 grid points. Point t reads rows t · 512 … t · 512 + 511 of the
  [16384, 1024] activations, the whole weight matrix and the whole bias row, and writes back rows
  t · 512 … t · 512 + 511 of the output. What it writes is the stored block of the kernel, which is the block of the
  flat projection at the same rows; the 32 row blocks cover the output (row r lies in block r / 512); so the output
  array after the region is the flat projection, whatever the arrays held when the region was entered.
-/
import proofs.«138484_j83872121356514_1_alg».proof.Proof.Gen.KernelIdeal.Frame
import proofs.«138484_j83872121356514_1_alg».proof.Proof.LinPay
import proofs.«138484_j83872121356514_1_alg».proof.Proof.Spec
import Idealize.ShloMosaic.Lib.Pipeline.Value

noncomputable section

open scoped BigOperators

namespace Cert.KernelIdeal.LinValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's accesses start at the origin of their buffers. -/
theorem origin2 : (![0, 0] : Fin 2 → Nat) = fun _ => 0 := funext fun a => by fin_cases a <;> rfl

/-- The index maps over the grid: the activation and output windows are at block row t, column block 0; the weight
    and bias windows stay at block (0, 0). -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the flat projection of the arrays the region found. -/
theorem flushed_eq2 (c : Dev nD) (t : Fin cfg2.N) :
    (Gen.dat2 (F := Ideal) V c).flushed 3 t
      = ((cfg2.win 3).blk t).view.read (Elt Ideal) (Cert.Attn.linFlat (V c main_v4) (V c main_v2) (V c main_v11)) := by
  show (cfg2.win 3).cut (grid2.coords t) ((Gen.dat2 (F := Ideal) V c).after 3 t) = _
  rw [Gen.after2_3]
  unfold Gen.out2_3
  rw [View.canon_unit_zero origin2]
  simp only [View.ld_unit_zero (S := S512x1024) origin2, View.ld_unit_zero (S := S1024x1024) origin2,
    View.ld_unit_zero (S := S1x1024) origin2]
  funext j
  show Gen.k2_pay1 (F := Ideal) (Gen.iblk2 V c 0 t) (Gen.iblk2 V c 1 t) (Gen.iblk2 V c 2 t) j
    = Cert.Attn.linFlat (V c main_v4) (V c main_v2) (V c main_v11) (((cfg2.win 3).blk t).view.emb j)
  obtain ⟨e00, e01, e10, e11, e20, e21, e30, e31⟩ := block_index2 t
  refine k2_pay1_block (V c main_v4) (V c main_v2) (V c main_v11) (Gen.iblk2 V c 0 t) (Gen.iblk2 V c 1 t)
    (Gen.iblk2 V c 2 t) t.val (((cfg2.win 3).blk t).view.emb j) j ?_ ?_ ?_ ?_ ?_
  · show win2_3.index t (0 : Fin 2) * 512 + 1 * (j 0).val = t.val * 512 + (j 0).val
    rw [e30]; omega
  · show win2_3.index t (1 : Fin 2) * 1024 + 1 * (j 1).val = (j 1).val
    rw [e31]; omega
  · intro y' k hk0 hk1
    show V c main_v4 (((cfg2.win 0).blk t).view.emb y') = V c main_v4 k
    refine congrArg (V c main_v4) (funext fun a => Fin.ext ?_)
    match a with
    | ⟨0, _⟩ =>
      show win2_0.index t (0 : Fin 2) * 512 + 1 * (y' 0).val = (k 0).val
      rw [e00, hk0]; omega
    | ⟨1, _⟩ =>
      show win2_0.index t (1 : Fin 2) * 1024 + 1 * (y' 1).val = (k 1).val
      rw [e01, hk1]; omega
  · funext y'
    show V c main_v2 (((cfg2.win 1).blk t).view.emb y') = V c main_v2 y'
    refine congrArg (V c main_v2) (funext fun a => Fin.ext ?_)
    match a with
    | ⟨0, _⟩ =>
      show win2_1.index t (0 : Fin 2) * 1024 + 1 * (y' 0).val = (y' 0).val
      rw [e10]; omega
    | ⟨1, _⟩ =>
      show win2_1.index t (1 : Fin 2) * 1024 + 1 * (y' 1).val = (y' 1).val
      rw [e11]; omega
  · funext y'
    show V c main_v11 (((cfg2.win 2).blk t).view.emb y') = V c main_v11 y'
    refine congrArg (V c main_v11) (funext fun a => Fin.ext ?_)
    match a with
    | ⟨0, _⟩ =>
      show win2_2.index t (0 : Fin 2) * 1 + 1 * (y' 0).val = (y' 0).val
      rw [e20]; omega
    | ⟨1, _⟩ =>
      show win2_2.index t (1 : Fin 2) * 1024 + 1 * (y' 1).val = (y' 1).val
      rw [e21]; omega

/-- An index of the output array is in point t's block iff each coordinate is in the block's range on its axis. -/
theorem mem_block2 (t : Fin cfg2.N) (i : S16384x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v12).slice (win2_3.rect t)).set ↔ _
  rw [View.set_slice_whole, Rect.mem_set_unit]
  exact Iff.rfl

/-- Every index of the output array is in some point's block: row r is in block r / 512. -/
theorem covered2 (i : S16384x1024.Idx) :
    ∃ t : Fin cfg2.N, (cfg2.win 3).flush t = true ∧ i ∈ ((cfg2.win 3).blk t).view.set := by
  have hN : grid2.N = 32 := Gen.N_2
  have hi0 : (i 0).val < 16384 := idx2_lt0 i
  have hi1 : (i 1).val < 1024 := idx2_lt1 i
  have ht : (i 0).val / 512 < grid2.N := by rw [hN]; omega
  obtain ⟨-, -, -, -, -, -, e30, e31⟩ := block_index2 ⟨(i 0).val / 512, ht⟩
  refine ⟨⟨(i 0).val / 512, ht⟩, Gen.flush2_3 _, ?_⟩
  rw [mem_block2]
  intro a
  match a with
  | ⟨0, _⟩ =>
    show win2_3.index ⟨(i 0).val / 512, ht⟩ (0 : Fin 2) * 512 ≤ (i 0).val
      ∧ (i 0).val < win2_3.index ⟨(i 0).val / 512, ht⟩ (0 : Fin 2) * 512 + 512
    rw [e30]
    show (i 0).val / 512 * 512 ≤ (i 0).val ∧ (i 0).val < (i 0).val / 512 * 512 + 512
    omega
  | ⟨1, _⟩ =>
    show win2_3.index ⟨(i 0).val / 512, ht⟩ (1 : Fin 2) * 1024 ≤ (i 1).val
      ∧ (i 1).val < win2_3.index ⟨(i 0).val / 512, ht⟩ (1 : Fin 2) * 1024 + 1024
    rw [e31]
    omega

/-- The output array after the region is the flat projection of the region's input arrays. -/
theorem final2 (c : Dev nD) :
    (Gen.dat2 (F := Ideal) V c).arrAt 3 cfg2.N = Cert.Attn.linFlat (V c main_v4) (V c main_v2) (V c main_v11) :=
  (Gen.dat2 (F := Ideal) V c).arrAt_eq_of_cover 3 (Cert.Attn.linFlat (V c main_v4) (V c main_v2) (V c main_v11))
    (fun t _ => flushed_eq2 V c t) covered2

end Cert.KernelIdeal.LinValue

end
-- ==== Proof.FlatProj.lean ====
/-
  The flat projection, reshaped back to [8, 2048, 1024], is the specification's projection.

  Row (b, s) of the [8, 2048, 1024] activations is row b · 2048 + s of the same activations flattened to
  [16384, 1024]: both have row-major position (b · 2048 + s) · 1024 + h at column h. So the projection of the
  flattened activations, read back at (b, s, d), is the sum over h of X (b, s, h) · W (h, d), plus the bias at d
  (the bias row [1, 1024] at (0, d) is the bias vector at d).
-/
import proofs.«138484_j83872121356514_1_alg».proof.Proof.Spec
import Idealize.ShloMosaic.Lib.Pipeline.Value
import Idealize.ShloMosaic.Lib.ValueLayout

noncomputable section

open scoped BigOperators

namespace Cert.Attn

open Idealize.ShloMosaic Idealize.ShloMosaic.ValueIdx

/-- The flat row of batch b, position s. -/
def flatRow (b : Fin 8) (s : Fin 2048) : Fin 16384 := ⟨b.val * 2048 + s.val, by omega⟩

theorem flatRow_val (b : Fin 8) (s : Fin 2048) : (flatRow b s).val = b.val * 2048 + s.val := rfl

/-- The flattened activations at (row b · 2048 + s, column h) are the activations at (b, s, h). -/
theorem flatten_apply (X : Act) (h1 : (⟨3, ![8, 2048, 1024]⟩ : Shape).ShapeCasts ⟨2, ![16384, 1024]⟩)
    (b : Fin 8) (s : Fin 2048) (h : Fin 1024) :
    shapeCast ⟨2, ![16384, 1024]⟩ X h1 (ix2 (flatRow b s) h) = X (ix3 b s h) :=
  shapeCast_apply X h1 _ _ (by
    rw [Shape.rowMajor_val_three, Shape.rowMajor_val_two]
    show (b.val * 2048 + s.val) * 1024 + h.val = (b.val * 2048 + s.val) * 1024 + h.val
    rfl)

/-- An array of flat rows, un-flattened, at (b, s, d) is the array at (row b · 2048 + s, column d). -/
theorem unflatten_apply (Z : (⟨2, ![16384, 1024]⟩ : Shape).Idx → EReal)
    (h2 : (⟨2, ![16384, 1024]⟩ : Shape).ShapeCasts ⟨3, ![8, 2048, 1024]⟩) (b : Fin 8) (s : Fin 2048) (d : Fin 1024) :
    shapeCast ⟨3, ![8, 2048, 1024]⟩ Z h2 (ix3 b s d) = Z (ix2 (flatRow b s) d) :=
  shapeCast_apply Z h2 _ _ (by
    rw [Shape.rowMajor_val_three, Shape.rowMajor_val_two]
    show (b.val * 2048 + s.val) * 1024 + d.val = (b.val * 2048 + s.val) * 1024 + d.val
    rfl)

/-- The projection of the flattened activations against the bias row, reshaped back, is the projection. -/
theorem proj_of_flat (X : Act) (W : Wgt) (β : Bias)
    (h1 : (⟨3, ![8, 2048, 1024]⟩ : Shape).ShapeCasts ⟨2, ![16384, 1024]⟩)
    (h2 : (⟨2, ![16384, 1024]⟩ : Shape).ShapeCasts ⟨3, ![8, 2048, 1024]⟩)
    (h3 : (⟨1, ![1024]⟩ : Shape).ShapeCasts ⟨2, ![1, 1024]⟩) :
    shapeCast ⟨3, ![8, 2048, 1024]⟩
        (linFlat (shapeCast ⟨2, ![16384, 1024]⟩ X h1) W (shapeCast ⟨2, ![1, 1024]⟩ β h3)) h2 = proj X W β := by
  funext i
  obtain ⟨b, s, d, rfl⟩ : ∃ (b : Fin 8) (s : Fin 2048) (d : Fin 1024), i = ix3 b s d := ⟨i 0, i 1, i 2, eq_ix3 i⟩
  refine (unflatten_apply _ h2 b s d).trans ?_
  rw [linFlat_ix2, proj_ix3]
  unfold linFlatAt projAt
  rw [shapeCast_a_1a_apply β h3 (0 : Fin 1) d]
  refine congrArg (· + β (ix1 d)) ?_
  exact Finset.sum_congr rfl fun h _ => congrArg (· * W (ix2 h d)) (flatten_apply X h1 b s h)

end Cert.Attn

end
-- ==== Proof.Chain.lean ====
/-
  What the attention call reads, as functions of the launch memory.

  The query array it reads is the query projection's flat output un-flattened; that output is the flat projection of
  the flattened query activations, the query weight (its narrowing is the identity on the extended reals) and the query bias as a row; and un-flattening the flat
  projection of flattened arguments is the projection of the arguments themselves. The key and value arrays likewise, both from the key/value activations, which the key projection
  reads and leaves in place for the value projection. The mask it reads is the key mask with a unit middle axis.
-/
import proofs.«138484_j83872121356514_1_alg».proof.Proof.Walk
import proofs.«138484_j83872121356514_1_alg».proof.Proof.Lin0
import proofs.«138484_j83872121356514_1_alg».proof.Proof.Lin1
import proofs.«138484_j83872121356514_1_alg».proof.Proof.Lin2
import proofs.«138484_j83872121356514_1_alg».proof.Proof.FlatProj

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The query array the attention call reads is the query projection of the arguments. -/
theorem query_eq (c : Dev nD) :
    V7 m ρ c main_v7 = Cert.Attn.proj (m ((c : Thread nD τ).loc main_arg0)) (m ((c : Thread nD τ).loc main_arg3)) (m ((c : Thread nD τ).loc main_arg4)) := by
  have hw : V7 m ρ c main_v7 = shapeCast S8x2048x1024 ((dat0 (V1 m ρ) c).arrAt 3 cfg0.N) Facts₀.shapeCasts_S16384x1024_S8x2048x1024 :=
    (Walk.W7_v7 m ρ c).trans ((Walk.W6_v7 m ρ c).trans ((Walk.W5_v7 m ρ c).trans ((Walk.W4_v7 m ρ c).trans
      ((Walk.W3_v7 m ρ c).trans (congrArg (fun z => shapeCast S8x2048x1024 z Facts₀.shapeCasts_S16384x1024_S8x2048x1024) (Walk.W2_v6 m ρ c))))))
  have h3 : V1 m ρ c main_v3 = shapeCast S16384x1024 (m ((c : Thread nD τ).loc main_arg0)) Facts₀.shapeCasts_S8x2048x1024_S16384x1024 := Walk.W1_v3 m ρ c
  have h0 : V1 m ρ c main_v0 = (m ((c : Thread nD τ).loc main_arg3)) := Walk.W1_v0 m ρ c
  have h5 : V1 m ρ c main_v5 = shapeCast S1x1024 (m ((c : Thread nD τ).loc main_arg4)) Facts₀.shapeCasts_S1024_S1x1024 := Walk.W1_v5 m ρ c
  rw [hw, LinValue.final0 (V1 m ρ) c, h3, h0, h5]
  exact Cert.Attn.proj_of_flat _ _ _ _ _ _

/-- The key array it reads is the key projection of the arguments. -/
theorem key_eq (c : Dev nD) :
    V7 m ρ c main_v10 = Cert.Attn.proj (m ((c : Thread nD τ).loc main_arg1)) (m ((c : Thread nD τ).loc main_arg5)) (m ((c : Thread nD τ).loc main_arg6)) := by
  have hw : V7 m ρ c main_v10 = shapeCast S8x2048x1024 ((dat1 (V3 m ρ) c).arrAt 3 cfg1.N) Facts₀.shapeCasts_S16384x1024_S8x2048x1024 :=
    (Walk.W7_v10 m ρ c).trans ((Walk.W6_v10 m ρ c).trans
      ((Walk.W5_v10 m ρ c).trans (congrArg (fun z => shapeCast S8x2048x1024 z Facts₀.shapeCasts_S16384x1024_S8x2048x1024) (Walk.W4_v9 m ρ c))))
  have h4 : V3 m ρ c main_v4 = shapeCast S16384x1024 (m ((c : Thread nD τ).loc main_arg1)) Facts₀.shapeCasts_S8x2048x1024_S16384x1024 :=
    (Walk.W3_v4 m ρ c).trans ((Walk.W2_v4 m ρ c).trans (Walk.W1_v4 m ρ c))
  have h1 : V3 m ρ c main_v1 = (m ((c : Thread nD τ).loc main_arg5)) :=
    (Walk.W3_v1 m ρ c).trans ((Walk.W2_v1 m ρ c).trans (show W1 m ρ c (Proc.devRef .tc main_v1) = (m ((c : Thread nD τ).loc main_arg5)) from Walk.W1_v1 m ρ c))
  have h8 : V3 m ρ c main_v8 = shapeCast S1x1024 (m ((c : Thread nD τ).loc main_arg6)) Facts₀.shapeCasts_S1024_S1x1024 :=
    (Walk.W3_v8 m ρ c).trans (congrArg (fun z => shapeCast S1x1024 z Facts₀.shapeCasts_S1024_S1x1024)
      ((Walk.W2_arg6 m ρ c).trans (Walk.W1_arg6 m ρ c)))
  rw [hw, LinValue.final1 (V3 m ρ) c, h4, h1, h8]
  exact Cert.Attn.proj_of_flat _ _ _ _ _ _

/-- The value array it reads is the value projection of the arguments. -/
theorem value_eq (c : Dev nD) :
    V7 m ρ c main_v13 = Cert.Attn.proj (m ((c : Thread nD τ).loc main_arg1)) (m ((c : Thread nD τ).loc main_arg7)) (m ((c : Thread nD τ).loc main_arg8)) := by
  have hw : V7 m ρ c main_v13 = shapeCast S8x2048x1024 ((dat2 (V5 m ρ) c).arrAt 3 cfg2.N) Facts₀.shapeCasts_S16384x1024_S8x2048x1024 :=
    (Walk.W7_v13 m ρ c).trans (congrArg (fun z => shapeCast S8x2048x1024 z Facts₀.shapeCasts_S16384x1024_S8x2048x1024) (Walk.W6_v12 m ρ c))
  have h4 : V5 m ρ c main_v4 = shapeCast S16384x1024 (m ((c : Thread nD τ).loc main_arg1)) Facts₀.shapeCasts_S8x2048x1024_S16384x1024 :=
    (Walk.W5_v4 m ρ c).trans ((Walk.W4_v4 m ρ c).trans ((Walk.W3_v4 m ρ c).trans ((Walk.W2_v4 m ρ c).trans (Walk.W1_v4 m ρ c))))
  have h2 : V5 m ρ c main_v2 = (m ((c : Thread nD τ).loc main_arg7)) :=
    (Walk.W5_v2 m ρ c).trans ((Walk.W4_v2 m ρ c).trans ((Walk.W3_v2 m ρ c).trans ((Walk.W2_v2 m ρ c).trans
      (show W1 m ρ c (Proc.devRef .tc main_v2) = (m ((c : Thread nD τ).loc main_arg7)) from Walk.W1_v2 m ρ c))))
  have h11 : V5 m ρ c main_v11 = shapeCast S1x1024 (m ((c : Thread nD τ).loc main_arg8)) Facts₀.shapeCasts_S1024_S1x1024 :=
    (Walk.W5_v11 m ρ c).trans (congrArg (fun z => shapeCast S1x1024 z Facts₀.shapeCasts_S1024_S1x1024)
      ((Walk.W4_arg8 m ρ c).trans ((Walk.W3_arg8 m ρ c).trans ((Walk.W2_arg8 m ρ c).trans (Walk.W1_arg8 m ρ c)))))
  rw [hw, LinValue.final2 (V5 m ρ) c, h4, h2, h11]
  exact Cert.Attn.proj_of_flat _ _ _ _ _ _

/-- The mask it reads, at (b, 0, k), is the key mask at (b, k). -/
theorem mask_eq (c : Dev nD) :
    (fun (b : Fin 8) (k : Fin 2048) => V7 m ρ c main_v14 (ix3 b (0 : Fin 1) k)) = fun b k => (m ((c : Thread nD τ).loc main_arg2)) (ix2 b k) := by
  have hw : V7 m ρ c main_v14 = shapeCast S8x1x2048 (m ((c : Thread nD τ).loc main_arg2)) Facts₀.shapeCasts_S8x2048_S8x1x2048 :=
    (Walk.W7_v14 m ρ c).trans (congrArg (fun z => shapeCast S8x1x2048 z Facts₀.shapeCasts_S8x2048_S8x1x2048)
      ((Walk.W6_arg2 m ρ c).trans ((Walk.W5_arg2 m ρ c).trans ((Walk.W4_arg2 m ρ c).trans ((Walk.W3_arg2 m ρ c).trans
        ((Walk.W2_arg2 m ρ c).trans (Walk.W1_arg2 m ρ c)))))))
  funext b k
  rw [hw]
  refine shapeCast_apply (s := S8x2048) (t := S8x1x2048) _ _ (ix3 b (0 : Fin 1) k) (ix2 b k) ?_
  show (S8x2048.rowMajor (ix2 b k)).val = (S8x1x2048.rowMajor (ix3 b (0 : Fin 1) k)).val
  rw [Shape.rowMajor_val_two, Shape.rowMajor_val_three]
  show b.val * 2048 + k.val = (b.val * 1 + 0) * 2048 + k.val
  omega

end Cert.KernelIdeal.Chain

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.AttnPay.lean ====
/-
  The attention call's body, read at one entry.

  The body loads a [1, 256, 1024] query block, [1, 2048, 1024] key and value blocks and a [1, 1, 2048] mask block and
  stores one value: scores = (query · keyᵀ) · scale + (1 − mask) · (−10000) broadcast over the query rows; each row's
  maximum, folded from −∞ and taken once more against −∞; the exponentials of the scores less their row's maximum; each
  exponential over its row's sum; those weights against the value block. The narrowing of the weights before the
  second product is the identity on the extended reals. Restated in five named stages, the stored value at (u, r, d)
  is the sum over the 2048 keys k of the softmax weight of score row r at k times the value block at (k, d) — the
  specification's attention entry once the blocks are identified with pieces of the arrays they were cut from.
-/
import proofs.«138484_j83872121356514_1_alg».proof.Proof.Gen.KernelIdeal.Skeleton
import proofs.«138484_j83872121356514_1_alg».proof.Proof.Spec
import proofs.«138484_j83872121356514_1_alg».proof.Proof.LibMatmulAt
import proofs.«138484_j83872121356514_1_alg».proof.Proof.LibColBroadcast
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.AttnValue

open Cert.KernelIdeal Cert.KernelIdeal.Gen Idealize.ShloMosaic Idealize.ShloMosaic.ValueIdx

/-! ## The body's arithmetic in five stages -/

/-- The block of masked, scaled scores: the query block against the transposed key block, times the scale, plus the
    mask row's term broadcast over the query rows. -/
def scoresV (x0 : Vec Ideal S1x256x1024 .bf16) (x2 : Vec Ideal S1x2048x1024 .bf16) (x6 : Vec Ideal S1x1x2048 .f32) :
    FVec Ideal S256x2048 .f32 :=
  addf
    (mulf
      (matmul dot_S256x1024_S1024x2048_S256x2048_1_0_0_1_n_n none (shapeCast S256x1024 x0 shapeCasts_S1x256x1024_S256x1024 : FVec Ideal S256x1024 .bf16)
        (transpose S1024x2048 [1, 0] (shapeCast S2048x1024 x2 shapeCasts_S1x2048x1024_S2048x1024 : FVec Ideal S2048x1024 .bf16) transposes_S2048x1024_p1_0_S1024x2048 : FVec Ideal S1024x2048 .bf16)
        (constant S256x2048 .f32 0x00000000#32))
      (broadcast S256x2048 (Scalar.ofBits .f32 0x3D000000#32)))
    (broadcastTo S256x2048
      (mulf (subf (broadcast S1x2048 (Scalar.ofBits .f32 0x3F800000#32)) (shapeCast S1x2048 x6 shapeCasts_S1x1x2048_S1x2048 : FVec Ideal S1x2048 .f32))
        (broadcast S1x2048 (Scalar.ofBits .f32 0xC61C4000#32)) : FVec Ideal S1x2048 .f32)
      broadcasts_S1x2048_S256x2048)

/-- Each row's maximum. -/
def rowMaxV (S : FVec Ideal S256x2048 .f32) : FVec Ideal S256 .f32 :=
  maximumf (broadcast S256 (Scalar.ofBits .f32 0xFF800000#32))
    (multiReduction .maximumf [1] S256 S 0xFF800000#32 reduces_S256x2048_S256 (.inl rfl) rfl)

/-- The exponentials of the scores shifted by their row's maximum. -/
def expsV (S : FVec Ideal S256x2048 .f32) : FVec Ideal S256x2048 .f32 :=
  exp (subf S (broadcastTo S256x2048 (shapeCast S256x1 (rowMaxV S) shapeCasts_S256_S256x1 : FVec Ideal S256x1 .f32) broadcasts_S256x1_S256x2048 : FVec Ideal S256x2048 .f32))

/-- The softmax weights: each exponential over its row's sum. -/
def probsV (S : FVec Ideal S256x2048 .f32) : FVec Ideal S256x2048 .f32 :=
  divf (expsV S)
    (broadcastTo S256x2048
      (shapeCast S256x1 (multiReduction .add [1] S256 (expsV S) 0x00000000#32 reduces_S256x2048_S256 (.inl rfl) rfl : FVec Ideal S256 .f32) shapeCasts_S256_S256x1 : FVec Ideal S256x1 .f32)
      broadcasts_S256x1_S256x2048 : FVec Ideal S256x2048 .f32)

/-- The output block: the weights against the value block. -/
def outV (x0 : Vec Ideal S1x256x1024 .bf16) (x2 x4 : Vec Ideal S1x2048x1024 .bf16) (x6 : Vec Ideal S1x1x2048 .f32) :
    FVec Ideal S1x256x1024 .f32 :=
  shapeCast S1x256x1024
    (matmul dot_S256x2048_S2048x1024_S256x1024_1_0_0_1_n_n none (truncf .bf16 (probsV (scoresV x0 x2 x6)) bitsLt_bf16_f32 : FVec Ideal S256x2048 .bf16)
      (shapeCast S2048x1024 x4 shapeCasts_S1x2048x1024_S2048x1024 : FVec Ideal S2048x1024 .bf16) (constant S256x1024 .f32 0x00000000#32) : FVec Ideal S256x1024 .f32)
    shapeCasts_S256x1024_S1x256x1024

/-- The body's one stored value is these five stages composed. -/
theorem k3_pay1_eq (x0 : Vec Ideal S1x256x1024 .bf16) (x2 x4 : Vec Ideal S1x2048x1024 .bf16) (x6 : Vec Ideal S1x1x2048 .f32) :
    k3_pay1 (F := Ideal) x0 x2 x4 x6 = outV x0 x2 x4 x6 := rfl

abbrev D1 := dot_S256x1024_S1024x2048_S256x2048_1_0_0_1_n_n
abbrev D2 := dot_S256x2048_S2048x1024_S256x1024_1_0_0_1_n_n

theorem D1_l0 (i : S256x2048.Idx) (q : D1.contr.Idx) : (D1.lhsIdx i q (0 : Fin 2)).val = (i (0 : Fin 2)).val := by
  unfold DotDims.lhsIdx
  rw [dif_neg (show ¬(0 : Fin S256x1024.rank) ∈ D1.lhsBatch by decide), dif_pos (show (0 : Fin S256x1024.rank) ∈ D1.lhsNonContracting by decide)]
  rfl
theorem D1_l1 (i : S256x2048.Idx) (q : D1.contr.Idx) : (D1.lhsIdx i q (1 : Fin 2)).val = (q ⟨0, by decide⟩).val :=
  D1.lhsIdx_val_of_single rfl i q
theorem D1_r0 (i : S256x2048.Idx) (q : D1.contr.Idx) : (D1.rhsIdx i q (0 : Fin 2)).val = (q ⟨0, by decide⟩).val :=
  D1.rhsIdx_val_of_single rfl i q
theorem D1_r1 (i : S256x2048.Idx) (q : D1.contr.Idx) : (D1.rhsIdx i q (1 : Fin 2)).val = (i (1 : Fin 2)).val := by
  unfold DotDims.rhsIdx
  rw [dif_neg (show ¬(1 : Fin S1024x2048.rank) ∈ D1.rhsBatch by decide), dif_pos (show (1 : Fin S1024x2048.rank) ∈ D1.rhsNonContracting by decide)]
  rfl

theorem matmul1_at (l : FVec Ideal S256x1024 .bf16) (r : FVec Ideal S1024x2048 .bf16) (p : Fin 256) (k : Fin 2048) :
    matmul D1 none l r (constant S256x2048 .f32 0x00000000#32) (ix2 p k) = ∑ d : Fin 1024, l (ix2 p d) * r (ix2 d k) :=
  MatmulAt.matmul_zero_ix2 D1 rfl rfl D1_l0 D1_l1 D1_r0 D1_r1 none l r p k

/-! ## Each stage read at an entry -/

theorem D2_l0 (i : S256x1024.Idx) (q : D2.contr.Idx) : (D2.lhsIdx i q (0 : Fin 2)).val = (i (0 : Fin 2)).val := by
  unfold DotDims.lhsIdx
  rw [dif_neg (show ¬(0 : Fin S256x2048.rank) ∈ D2.lhsBatch by decide), dif_pos (show (0 : Fin S256x2048.rank) ∈ D2.lhsNonContracting by decide)]
  rfl
theorem D2_l1 (i : S256x1024.Idx) (q : D2.contr.Idx) : (D2.lhsIdx i q (1 : Fin 2)).val = (q ⟨0, by decide⟩).val :=
  D2.lhsIdx_val_of_single rfl i q
theorem D2_r0 (i : S256x1024.Idx) (q : D2.contr.Idx) : (D2.rhsIdx i q (0 : Fin 2)).val = (q ⟨0, by decide⟩).val :=
  D2.rhsIdx_val_of_single rfl i q
theorem D2_r1 (i : S256x1024.Idx) (q : D2.contr.Idx) : (D2.rhsIdx i q (1 : Fin 2)).val = (i (1 : Fin 2)).val := by
  unfold DotDims.rhsIdx
  rw [dif_neg (show ¬(1 : Fin S2048x1024.rank) ∈ D2.rhsBatch by decide), dif_pos (show (1 : Fin S2048x1024.rank) ∈ D2.rhsNonContracting by decide)]
  rfl

/-- The weights-by-values product at (p, d): the sum over the 2048 keys. -/
theorem matmul2_at (l : FVec Ideal S256x2048 .bf16) (r : FVec Ideal S2048x1024 .bf16) (p : Fin 256) (d : Fin 1024) :
    matmul D2 none l r (constant S256x1024 .f32 0x00000000#32) (ix2 p d) = ∑ k : Fin 2048, l (ix2 p k) * r (ix2 k d) :=
  MatmulAt.matmul_zero_ix2 D2 rfl rfl D2_l0 D2_l1 D2_r0 D2_r1 none l r p d

/-- A vector viewed as one column reads its entry at row r. -/
theorem col_of_vec {α : Type} {a : ℕ} (v : (⟨1, ![a]⟩ : Shape).Idx → α) (h : (⟨1, ![a]⟩ : Shape).ShapeCasts ⟨2, ![a, 1]⟩) (r : Fin a) :
    shapeCast ⟨2, ![a, 1]⟩ v h (ix2 r (0 : Fin 1)) = v (ix1 r) :=
  shapeCast_apply v h _ _ (by
    rw [Shape.rowMajor_val_two, Shape.rowMajor_val_one]
    show r.val = r.val * 1 + 0
    omega)

/-- The scores block at (r, k): the query row r against the key row k, scaled, plus the mask's term at k. -/
theorem scoresV_at (x0 : Vec Ideal S1x256x1024 .bf16) (x2 : Vec Ideal S1x2048x1024 .bf16) (x6 : Vec Ideal S1x1x2048 .f32)
    (r : Fin 256) (k : Fin 2048) :
    scoresV x0 x2 x6 (ix2 r k)
      = (∑ d : Fin 1024, x0 (ix3 (0 : Fin 1) r d) * x2 (ix3 (0 : Fin 1) k d)) * Cert.Attn.scaleWord
        + (Cert.Attn.one - x6 (ix3 (0 : Fin 1) (0 : Fin 1) k)) * Cert.Attn.negTenK := by
  unfold scoresV
  refine congrArg₂ (· + ·) (congrArg (· * Cert.Attn.scaleWord) ?_) ?_
  · refine (matmul1_at _ _ r k).trans (Finset.sum_congr rfl fun d _ => ?_)
    refine congrArg₂ (· * ·) (shapeCast_1ab_ab_apply x0 _ r d) ?_
    refine (transpose_apply [1, 0] _ _ (ix2 d k) (ix2 k d) (fun b => match b with | ⟨0, _⟩ => rfl | ⟨1, _⟩ => rfl)).trans ?_
    exact shapeCast_1ab_ab_apply x2 _ k d
  · refine (broadcastTo_1b_ab_apply _ _ r k).trans ?_
    exact congrArg (fun z => (Cert.Attn.one - z) * Cert.Attn.negTenK) (shapeCast_1ab_ab_apply x6 _ (0 : Fin 1) k)

/-- A row's maximum as the body takes it is the specification's. -/
theorem rowMaxV_at (S : FVec Ideal S256x2048 .f32) (r : Fin 256) :
    rowMaxV S (ix1 r) = Cert.Attn.rowMax (fun k => S (ix2 r k)) := by
  unfold rowMaxV Cert.Attn.rowMax
  refine congrArg (max Cert.Attn.negInf) ?_
  refine (Ideal.multiReduction_maximumf_single S _ reduces_S256x2048_S256 _ _ (ix1 r)).trans ?_
  refine congrArg (fun f : Fin 2048 → EReal => (Finset.univ : Finset (Fin 2048)).fold max Cert.Attn.negInf f) ?_
  funext k
  exact congrArg S (funext fun a => Fin.ext (by match a with | ⟨0, _⟩ => rfl | ⟨1, _⟩ => rfl))

/-- The shifted exponentials. -/
theorem expsV_at (S : FVec Ideal S256x2048 .f32) (r : Fin 256) (k : Fin 2048) :
    expsV S (ix2 r k) = Cert.Attn.expAt (fun k => S (ix2 r k)) k := by
  unfold expsV Cert.Attn.expAt
  refine congrArg (fun z => Ideal.exp (S (ix2 r k) - z)) ?_
  refine (LibColBroadcast.broadcastTo_a1_ab_apply _ _ r k).trans ?_
  exact (col_of_vec (rowMaxV S) _ r).trans (rowMaxV_at S r)

/-- The softmax weights. -/
theorem probsV_at (S : FVec Ideal S256x2048 .f32) (r : Fin 256) (k : Fin 2048) :
    probsV S (ix2 r k) = Cert.Attn.probAt (fun k => S (ix2 r k)) k := by
  unfold probsV Cert.Attn.probAt
  refine congrArg₂ Ideal.div (expsV_at S r k) ?_
  refine (LibColBroadcast.broadcastTo_a1_ab_apply _ _ r k).trans ?_
  refine (col_of_vec _ _ r).trans ?_
  refine (Ideal.multiReduction_add_single (expsV S) _ reduces_S256x2048_S256 _ _ (ix1 r)).trans ?_
  refine Finset.sum_congr rfl fun k' _ => ?_
  exact (congrArg (expsV S) (funext fun a => Fin.ext (by match a with | ⟨0, _⟩ => rfl | ⟨1, _⟩ => rfl))).trans (expsV_at S r k')

/-- The output block at (u, r, d). -/
theorem outV_at (x0 : Vec Ideal S1x256x1024 .bf16) (x2 x4 : Vec Ideal S1x2048x1024 .bf16) (x6 : Vec Ideal S1x1x2048 .f32)
    (u : Fin 1) (r : Fin 256) (d : Fin 1024) :
    outV x0 x2 x4 x6 (ix3 u r d)
      = ∑ k : Fin 2048, Cert.Attn.probAt (fun k => scoresV x0 x2 x6 (ix2 r k)) k * x4 (ix3 (0 : Fin 1) k d) := by
  unfold outV
  refine (shapeCast_ab_1ab_apply _ _ u r d).trans ?_
  refine (matmul2_at _ _ r d).trans (Finset.sum_congr rfl fun k _ => ?_)
  exact congrArg₂ (· * ·) (probsV_at _ r k) (shapeCast_1ab_ab_apply x4 _ k d)

/-- The body's stored value at (u, r, d), over the four input blocks. -/
theorem k3_pay1_at (x0 : Vec Ideal S1x256x1024 .bf16) (x2 x4 : Vec Ideal S1x2048x1024 .bf16) (x6 : Vec Ideal S1x1x2048 .f32)
    (u : Fin 1) (r : Fin 256) (d : Fin 1024) :
    k3_pay1 (F := Ideal) x0 x2 x4 x6 (ix3 u r d)
      = ∑ k : Fin 2048, Cert.Attn.probAt (fun k => (∑ d' : Fin 1024, x0 (ix3 (0 : Fin 1) r d') * x2 (ix3 (0 : Fin 1) k d')) * Cert.Attn.scaleWord
            + (Cert.Attn.one - x6 (ix3 (0 : Fin 1) (0 : Fin 1) k)) * Cert.Attn.negTenK) k * x4 (ix3 (0 : Fin 1) k d) := by
  rw [k3_pay1_eq, outV_at]
  refine Finset.sum_congr rfl fun k _ => ?_
  rw [show (fun k => scoresV x0 x2 x6 (ix2 r k)) = _ from funext fun k => scoresV_at x0 x2 x6 r k]

/-- One entry of the stored block is one entry of the specification's attention, whenever the four input blocks are
    the matching pieces of arrays Q, K, V and of the mask M: the query block's row r is Q's row (b, q), the key and value
    blocks are K's and V's batch b, the mask block is M's batch b. -/
theorem block_at (Q K Vv : Cert.Attn.Act) (M : (⟨3, ![8, 1, 2048]⟩ : Shape).Idx → EReal)
    (x0 : Vec Ideal S1x256x1024 .bf16) (x2 x4 : Vec Ideal S1x2048x1024 .bf16) (x6 : Vec Ideal S1x1x2048 .f32)
    (b : Fin 8) (q : Fin 2048) (d₀ : Fin 1024) (u : Fin 1) (r : Fin 256) (d : Fin 1024)
    (h0 : ∀ d' : Fin 1024, x0 (ix3 (0 : Fin 1) r d') = Q (ix3 b q d'))
    (h2 : ∀ (k : Fin 2048) (d' : Fin 1024), x2 (ix3 (0 : Fin 1) k d') = K (ix3 b k d'))
    (h4 : ∀ k : Fin 2048, x4 (ix3 (0 : Fin 1) k d) = Vv (ix3 b k d₀))
    (h6 : ∀ k : Fin 2048, x6 (ix3 (0 : Fin 1) (0 : Fin 1) k) = M (ix3 b (0 : Fin 1) k)) :
    k3_pay1 (F := Ideal) x0 x2 x4 x6 (ix3 u r d)
      = Cert.Attn.attnAt Cert.Attn.scaleWord Q K Vv (fun b k => M (ix3 b (0 : Fin 1) k)) b q d₀ := by
  rw [k3_pay1_at]
  unfold Cert.Attn.attnAt
  have hS : (fun k : Fin 2048 => (∑ d' : Fin 1024, x0 (ix3 (0 : Fin 1) r d') * x2 (ix3 (0 : Fin 1) k d')) * Cert.Attn.scaleWord
        + (Cert.Attn.one - x6 (ix3 (0 : Fin 1) (0 : Fin 1) k)) * Cert.Attn.negTenK)
      = Cert.Attn.scoreAt Cert.Attn.scaleWord Q K (fun b k => M (ix3 b (0 : Fin 1) k)) b q := by
    funext k
    unfold Cert.Attn.scoreAt
    rw [h6 k]
    refine congrArg (fun z => z * Cert.Attn.scaleWord + (Cert.Attn.one - M (ix3 b (0 : Fin 1) k)) * Cert.Attn.negTenK) ?_
    exact Finset.sum_congr rfl fun d' _ => by rw [h0 d', h2 k d']
  rw [hS]
  exact Finset.sum_congr rfl fun k _ => by rw [h4 k]

end Cert.KernelIdeal.AttnValue

end
-- ==== Proof.AttnRegion.lean ====
/-
  The attention call: its output array is the specification's attention of the four arrays it reads.

  The call runs the attention body over an 8 × 8 grid. Point (g₀, g₁) reads rows g₁ · 256 … g₁ · 256 + 255 of batch g₀
  of the query array, batch g₀ of the key and value arrays and batch g₀ of the mask, and writes back rows
  g₁ · 256 … g₁ · 256 + 255 of batch g₀ of the output. What it writes is the body's stored block, which is the block of
  the attention array at the same batch and rows; the 64 blocks cover the output (batch b, row q lies in block
  (b, q / 256)); so the output array after the call is the attention array, whatever the arrays held when the call
  was entered.
-/
import proofs.«138484_j83872121356514_1_alg».proof.Proof.Gen.KernelIdeal.Frame
import proofs.«138484_j83872121356514_1_alg».proof.Proof.AttnPay
import proofs.«138484_j83872121356514_1_alg».proof.Proof.Spec
import Idealize.ShloMosaic.Lib.Pipeline.Value

noncomputable section

open scoped BigOperators

namespace Cert.KernelIdeal.AttnValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What the output array ends holding: the attention of the query, key and value arrays the call reads, under the
    key mask it reads. -/
abbrev G (V : (c : Dev nD) → (b : Ref sig .tc) → Buf (Elt Ideal) ((c : Thread nD τ).loc b)) (c : Dev nD) :
    Buf (Elt Ideal) ((c : Thread nD τ).loc main_v15) :=
  Cert.Attn.attn Cert.Attn.scaleWord (V c main_v7) (V c main_v10) (V c main_v13)
    (fun b k => V c main_v14 (ix3 b (0 : Fin 1) k))

/-! ## A stored block as a block of the attention array

  When the query block holds rows g₁ · 256 … g₁ · 256 + 255 of batch g₀ of Q, the key and value blocks are batch g₀ of K
  and V, and the mask block is batch g₀ of M, entry y of the stored block is the attention of (Q, K, V, M) at batch
  g₀, row g₁ · 256 + y₁, column y₂. -/

theorem pay_block (Q K Vv : Cert.Attn.Act) (M : S8x1x2048.Idx → EReal)
    (x0 : Vec Ideal S1x256x1024 .bf16) (x2 x4 : Vec Ideal S1x2048x1024 .bf16) (x6 : Vec Ideal S1x1x2048 .f32)
    (g0 g1 : Nat) (i : S8x2048x1024.Idx) (y : S1x256x1024.Idx)
    (hi0 : (i 0).val = g0 + (y 0).val) (hi1 : (i 1).val = g1 * 256 + (y 1).val) (hi2 : (i 2).val = (y 2).val)
    (h0 : ∀ (y' : S1x256x1024.Idx) (k : S8x2048x1024.Idx), (k 0).val = g0 + (y' 0).val →
      (k 1).val = g1 * 256 + (y' 1).val → (k 2).val = (y' 2).val → x0 y' = Q k)
    (h2 : ∀ (y' : S1x2048x1024.Idx) (k : S8x2048x1024.Idx), (k 0).val = g0 + (y' 0).val →
      (k 1).val = (y' 1).val → (k 2).val = (y' 2).val → x2 y' = K k)
    (h4 : ∀ (y' : S1x2048x1024.Idx) (k : S8x2048x1024.Idx), (k 0).val = g0 + (y' 0).val →
      (k 1).val = (y' 1).val → (k 2).val = (y' 2).val → x4 y' = Vv k)
    (h6 : ∀ (y' : S1x1x2048.Idx) (k : S8x1x2048.Idx), (k 0).val = g0 + (y' 0).val →
      (k 1).val = (y' 1).val → (k 2).val = (y' 2).val → x6 y' = M k) :
    k3_pay1 (F := Ideal) x0 x2 x4 x6 y
      = Cert.Attn.attn Cert.Attn.scaleWord Q K Vv (fun b k => M (ix3 b (0 : Fin 1) k)) i := by
  obtain ⟨u, r, d, rfl⟩ : ∃ (u : Fin 1) (r : Fin 256) (d : Fin 1024), y = ix3 u r d := ⟨y 0, y 1, y 2, eq_ix3 y⟩
  obtain ⟨b, q, d₀, rfl⟩ : ∃ (b : Fin 8) (q : Fin 2048) (d₀ : Fin 1024), i = ix3 b q d₀ := ⟨i 0, i 1, i 2, eq_ix3 i⟩
  have hd : d₀ = d := Fin.ext hi2
  subst hd
  have hu : u.val = 0 := by have := u.isLt; omega
  have hb : b.val = g0 := by
    have e : b.val = g0 + u.val := hi0
    omega
  have hq : q.val = g1 * 256 + r.val := hi1
  rw [Cert.Attn.attn_ix3]
  refine block_at Q K Vv M x0 x2 x4 x6 b q d₀ u r d₀ ?_ ?_ ?_ ?_
  · intro d'
    refine h0 (ix3 (0 : Fin 1) r d') (ix3 b q d') ?_ ?_ rfl
    · show b.val = g0 + 0
      omega
    · exact hq
  · intro k d'
    refine h2 (ix3 (0 : Fin 1) k d') (ix3 b k d') ?_ rfl rfl
    show b.val = g0 + 0
    omega
  · intro k
    refine h4 (ix3 (0 : Fin 1) k d₀) (ix3 b k d₀) ?_ rfl rfl
    show b.val = g0 + 0
    omega
  · intro k
    refine h6 (ix3 (0 : Fin 1) (0 : Fin 1) k) (ix3 b (0 : Fin 1) k) ?_ rfl rfl
    show b.val = g0 + 0
    omega

/-! ## From the blocks to the array -/

/-- The body's accesses start at the origin of their buffers. -/
theorem origin3 : (![0, 0, 0] : Fin 3 → Nat) = fun _ => 0 := funext fun a => by fin_cases a <;> rfl

/-- The index maps over the grid: the query window moves with the output window (batch, row block, column block 0);
    the key, value and mask windows are at the output's batch and block 0 on the other axes; the output's batch and
    row block are below 8. -/
theorem block_index3 : ∀ t : Fin cfg3.N,
    win3_0.index t (0 : Fin 3) = win3_4.index t (0 : Fin 3) ∧ win3_0.index t (1 : Fin 3) = win3_4.index t (1 : Fin 3)
    ∧ win3_0.index t (2 : Fin 3) = 0
    ∧ win3_1.index t (0 : Fin 3) = win3_4.index t (0 : Fin 3) ∧ win3_1.index t (1 : Fin 3) = 0
    ∧ win3_1.index t (2 : Fin 3) = 0
    ∧ win3_2.index t (0 : Fin 3) = win3_4.index t (0 : Fin 3) ∧ win3_2.index t (1 : Fin 3) = 0
    ∧ win3_2.index t (2 : Fin 3) = 0
    ∧ win3_3.index t (0 : Fin 3) = win3_4.index t (0 : Fin 3) ∧ win3_3.index t (1 : Fin 3) = 0
    ∧ win3_3.index t (2 : Fin 3) = 0
    ∧ win3_4.index t (0 : Fin 3) ≤ 7 ∧ win3_4.index t (1 : Fin 3) ≤ 7 ∧ win3_4.index t (2 : Fin 3) = 0 :=
  (by decide +kernel : ∀ t : Fin grid3.N, _)

/-- Every (batch, row block) is some point's output block. -/
theorem block_onto3 : ∀ (q0 q1 : Fin 8), ∃ t : Fin cfg3.N, win3_4.index t = ![q0.val, q1.val, 0] :=
  (by decide +kernel : ∀ (q0 q1 : Fin 8), ∃ t : Fin grid3.N, win3_4.index t = ![q0.val, q1.val, 0])

/-- What point t writes back is block t of the attention of the arrays the region found. -/
theorem flushed_eq3 (c : Dev nD) (t : Fin cfg3.N) :
    (dat3 (F := Ideal) V c).flushed 4 t = ((cfg3.win 4).blk t).view.read (Elt Ideal) (G V c) := by
  show (cfg3.win 4).cut (grid3.coords t) ((dat3 (F := Ideal) V c).after 4 t) = _
  rw [after3_4]
  unfold out3_4
  rw [View.canon_unit_zero origin3]
  simp only [View.ld_unit_zero (S := S1x256x1024) origin3, View.ld_unit_zero (S := S1x2048x1024) origin3,
    View.ld_unit_zero (S := S1x1x2048) origin3]
  funext j
  show k3_pay1 (F := Ideal) (iblk3 V c 0 t) (iblk3 V c 1 t) (iblk3 V c 2 t) (iblk3 V c 3 t) j
    = Cert.Attn.attn Cert.Attn.scaleWord (V c main_v7) (V c main_v10) (V c main_v13)
        (fun b k => V c main_v14 (ix3 b (0 : Fin 1) k)) (((cfg3.win 4).blk t).view.emb j)
  obtain ⟨e00, e01, e02, e10, e11, e12, e20, e21, e22, e30, e31, e32, -, -, e42⟩ := block_index3 t
  refine pay_block (V c main_v7) (V c main_v10) (V c main_v13) (V c main_v14) (iblk3 V c 0 t) (iblk3 V c 1 t)
    (iblk3 V c 2 t) (iblk3 V c 3 t) (win3_4.index t (0 : Fin 3)) (win3_4.index t (1 : Fin 3))
    (((cfg3.win 4).blk t).view.emb j) j ?_ ?_ ?_ ?_ ?_ ?_ ?_
  · show win3_4.index t (0 : Fin 3) * 1 + 1 * (j 0).val = win3_4.index t (0 : Fin 3) + (j 0).val
    omega
  · show win3_4.index t (1 : Fin 3) * 256 + 1 * (j 1).val = win3_4.index t (1 : Fin 3) * 256 + (j 1).val
    omega
  · show win3_4.index t (2 : Fin 3) * 1024 + 1 * (j 2).val = (j 2).val
    rw [e42]; omega
  · intro y' k hk0 hk1 hk2
    show V c main_v7 (((cfg3.win 0).blk t).view.emb y') = V c main_v7 k
    refine congrArg (V c main_v7) (funext fun a => Fin.ext ?_)
    match a with
    | ⟨0, _⟩ =>
      show win3_0.index t (0 : Fin 3) * 1 + 1 * (y' 0).val = (k 0).val
      rw [e00, hk0]; omega
    | ⟨1, _⟩ =>
      show win3_0.index t (1 : Fin 3) * 256 + 1 * (y' 1).val = (k 1).val
      rw [e01, hk1]; omega
    | ⟨2, _⟩ =>
      show win3_0.index t (2 : Fin 3) * 1024 + 1 * (y' 2).val = (k 2).val
      rw [e02, hk2]; omega
  · intro y' k hk0 hk1 hk2
    show V c main_v10 (((cfg3.win 1).blk t).view.emb y') = V c main_v10 k
    refine congrArg (V c main_v10) (funext fun a => Fin.ext ?_)
    match a with
    | ⟨0, _⟩ =>
      show win3_1.index t (0 : Fin 3) * 1 + 1 * (y' 0).val = (k 0).val
      rw [e10, hk0]; omega
    | ⟨1, _⟩ =>
      show win3_1.index t (1 : Fin 3) * 2048 + 1 * (y' 1).val = (k 1).val
      rw [e11, hk1]; omega
    | ⟨2, _⟩ =>
      show win3_1.index t (2 : Fin 3) * 1024 + 1 * (y' 2).val = (k 2).val
      rw [e12, hk2]; omega
  · intro y' k hk0 hk1 hk2
    show V c main_v13 (((cfg3.win 2).blk t).view.emb y') = V c main_v13 k
    refine congrArg (V c main_v13) (funext fun a => Fin.ext ?_)
    match a with
    | ⟨0, _⟩ =>
      show win3_2.index t (0 : Fin 3) * 1 + 1 * (y' 0).val = (k 0).val
      rw [e20, hk0]; omega
    | ⟨1, _⟩ =>
      show win3_2.index t (1 : Fin 3) * 2048 + 1 * (y' 1).val = (k 1).val
      rw [e21, hk1]; omega
    | ⟨2, _⟩ =>
      show win3_2.index t (2 : Fin 3) * 1024 + 1 * (y' 2).val = (k 2).val
      rw [e22, hk2]; omega
  · intro y' k hk0 hk1 hk2
    show V c main_v14 (((cfg3.win 3).blk t).view.emb y') = V c main_v14 k
    refine congrArg (V c main_v14) (funext fun a => Fin.ext ?_)
    match a with
    | ⟨0, _⟩ =>
      show win3_3.index t (0 : Fin 3) * 1 + 1 * (y' 0).val = (k 0).val
      rw [e30, hk0]; omega
    | ⟨1, _⟩ =>
      show win3_3.index t (1 : Fin 3) * 1 + 1 * (y' 1).val = (k 1).val
      rw [e31, hk1]; omega
    | ⟨2, _⟩ =>
      show win3_3.index t (2 : Fin 3) * 2048 + 1 * (y' 2).val = (k 2).val
      rw [e32, hk2]; omega

/-- An index of the output array is in point t's block iff each coordinate is in the block's range on its axis. -/
theorem mem_block3 (t : Fin cfg3.N) (i : S8x2048x1024.Idx) :
    i ∈ ((cfg3.win 4).blk t).view.set ↔ ∀ a : Fin 3, win3_4.index t a * S1x256x1024.size a ≤ (i a).val
      ∧ (i a).val < win3_4.index t a * S1x256x1024.size a + S1x256x1024.size a := by
  show i ∈ ((View.whole main_v15).slice (win3_4.rect t)).set ↔ _
  rw [View.set_slice_whole, Rect.mem_set_unit]
  exact Iff.rfl

/-- Every index of the output array is in some point's block: batch b, row q is in block (b, q / 256). -/
theorem covered3 (i : S8x2048x1024.Idx) :
    ∃ t : Fin cfg3.N, (cfg3.win 4).flush t = true ∧ i ∈ ((cfg3.win 4).blk t).view.set := by
  have hi0 : (i 0).val < 8 := (i 0).isLt
  have hi1 : (i 1).val < 2048 := (i 1).isLt
  have hi2 : (i 2).val < 1024 := (i 2).isLt
  obtain ⟨t, ht⟩ := block_onto3 ⟨(i 0).val, hi0⟩ ⟨(i 1).val / 256, by omega⟩
  have q0 : win3_4.index t (0 : Fin 3) = (i 0).val := congrFun ht 0
  have q1 : win3_4.index t (1 : Fin 3) = (i 1).val / 256 := congrFun ht 1
  have q2 : win3_4.index t (2 : Fin 3) = 0 := congrFun ht 2
  refine ⟨t, flush3_4 t, ?_⟩
  rw [mem_block3]
  intro a
  match a with
  | ⟨0, _⟩ =>
    show win3_4.index t (0 : Fin 3) * 1 ≤ (i 0).val ∧ (i 0).val < win3_4.index t (0 : Fin 3) * 1 + 1
    omega
  | ⟨1, _⟩ =>
    show win3_4.index t (1 : Fin 3) * 256 ≤ (i 1).val ∧ (i 1).val < win3_4.index t (1 : Fin 3) * 256 + 256
    omega
  | ⟨2, _⟩ =>
    show win3_4.index t (2 : Fin 3) * 1024 ≤ (i 2).val ∧ (i 2).val < win3_4.index t (2 : Fin 3) * 1024 + 1024
    omega

/-- The output array after the attention call is the attention of the arrays the call reads. -/
theorem final3 (c : Dev nD) : (dat3 (F := Ideal) V c).arrAt 4 cfg3.N = G V c :=
  (dat3 (F := Ideal) V c).arrAt_eq_of_cover 4 (G V c) (fun t _ => flushed_eq3 V c t) covered3

end Cert.KernelIdeal.AttnValue

end
-- ==== Proof.Result.lean ====
/-
  The kernel program's result is cross attention of its arguments.

  The result buffer after the run is the attention call's output array; that array is the specification's attention of
  the four arrays the call reads; and those are the three projections of the arguments and the key mask.
-/
import proofs.«138484_j83872121356514_1_alg».proof.Proof.Chain
import proofs.«138484_j83872121356514_1_alg».proof.Proof.AttnRegion

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The result buffer at the last boundary is cross attention of the nine arguments, at the scale written as the word
    of 1/32. -/
theorem result_eq (c : Dev nD) :
    W8 m ρ c (Proc.devRef .tc main_v15) = Cert.Attn.crossAttn Cert.Attn.scaleWord (m ((c : Thread nD τ).loc main_arg0)) (m ((c : Thread nD τ).loc main_arg1)) (fun b k => (m ((c : Thread nD τ).loc main_arg2)) (ix2 b k)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (Walk.W8_v15 m ρ c).trans ((AttnValue.final3 (V7 m ρ) c).trans ?_)
  show Cert.Attn.attn Cert.Attn.scaleWord (V7 m ρ c main_v7) (V7 m ρ c main_v10) (V7 m ρ c main_v13)
      (fun b k => V7 m ρ c main_v14 (ix3 b (0 : Fin 1) k)) = _
  rw [Chain.query_eq m ρ c, Chain.key_eq m ρ c, Chain.value_eq m ρ c, Chain.mask_eq m ρ c]
  rfl

end Cert.KernelIdeal.Result

end
-- ==== Proof.RefProj.lean ====
/-
  The reference's three linear projections, entry by entry: each is a contraction of the activations' last axis
  against the weights' first axis, plus the bias broadcast along the two leading axes.
-/
import proofs.«138484_j83872121356514_1_alg».proof.Proof.Gen.ReferenceIdeal.Read
import proofs.«138484_j83872121356514_1_alg».proof.Proof.Spec

noncomputable section

open scoped BigOperators

namespace Cert.ReferenceIdeal.RefValue

open Cert.ReferenceIdeal Cert.ReferenceIdeal.Read Idealize.ShloMosaic Idealize.ShloMosaic.ValueIdx

/-- The query projection at (b, s, d): row (b, s) of the query activations against column d of the weights, plus the bias at d. -/
theorem v3_at (x0 : (⟨S8x2048x1024, .f32⟩ : BufTy).Contents (Elt Ideal)) (x3 : (⟨S1024x1024, .f32⟩ : BufTy).Contents (Elt Ideal))
    (x4 : (⟨S1024, .f32⟩ : BufTy).Contents (Elt Ideal)) (b : Fin 8) (s : Fin 2048) (d : Fin 1024) :
    val_main_v3 (F := Ideal) x0 x3 x4 (ix3 b s d) = Cert.Attn.projAt x0 x3 x4 b s d := by
  have el : ∀ k : Fin 1024, lidx_main_v0 (ix3 b s d) k = ix3 b s k := fun k =>
    funext fun a => Fin.ext (by match a with | ⟨0, _⟩ => rfl | ⟨1, _⟩ => rfl | ⟨2, _⟩ => rfl)
  have er : ∀ k : Fin 1024, ridx_main_v0 (ix3 b s d) k = ix2 k d := fun k =>
    funext fun a => Fin.ext (by match a with | ⟨0, _⟩ => rfl | ⟨1, _⟩ => rfl)
  have eb : idx_main_v1 (idx_main_v2 (ix3 b s d)) = ix1 d :=
    funext fun a => Fin.ext (by match a with | ⟨0, _⟩ => rfl)
  rw [val_main_v3_apply, val_main_v0_apply, val_main_v2_apply, val_main_v1_apply, eb]
  simp only [el, er, Ideal.addf_def]
  rfl

/-- The same, as arrays. -/
theorem v3_eq (x0 : (⟨S8x2048x1024, .f32⟩ : BufTy).Contents (Elt Ideal)) (x3 : (⟨S1024x1024, .f32⟩ : BufTy).Contents (Elt Ideal))
    (x4 : (⟨S1024, .f32⟩ : BufTy).Contents (Elt Ideal)) :
    val_main_v3 (F := Ideal) x0 x3 x4 = Cert.Attn.proj x0 x3 x4 := by
  funext i
  obtain ⟨b, s, d, rfl⟩ : ∃ (b : Fin 8) (s : Fin 2048) (d : Fin 1024), i = ix3 b s d := ⟨i 0, i 1, i 2, eq_ix3 i⟩
  exact v3_at x0 x3 x4 b s d

/-- The key projection at (b, s, d). -/
theorem v7_at (x1 : (⟨S8x2048x1024, .f32⟩ : BufTy).Contents (Elt Ideal)) (x5 : (⟨S1024x1024, .f32⟩ : BufTy).Contents (Elt Ideal))
    (x6 : (⟨S1024, .f32⟩ : BufTy).Contents (Elt Ideal)) (b : Fin 8) (s : Fin 2048) (d : Fin 1024) :
    val_main_v7 (F := Ideal) x1 x5 x6 (ix3 b s d) = Cert.Attn.projAt x1 x5 x6 b s d := by
  have el : ∀ k : Fin 1024, lidx_main_v4 (ix3 b s d) k = ix3 b s k := fun k =>
    funext fun a => Fin.ext (by match a with | ⟨0, _⟩ => rfl | ⟨1, _⟩ => rfl | ⟨2, _⟩ => rfl)
  have er : ∀ k : Fin 1024, ridx_main_v4 (ix3 b s d) k = ix2 k d := fun k =>
    funext fun a => Fin.ext (by match a with | ⟨0, _⟩ => rfl | ⟨1, _⟩ => rfl)
  have eb : idx_main_v5 (idx_main_v6 (ix3 b s d)) = ix1 d :=
    funext fun a => Fin.ext (by match a with | ⟨0, _⟩ => rfl)
  rw [val_main_v7_apply, val_main_v4_apply, val_main_v6_apply, val_main_v5_apply, eb]
  simp only [el, er, Ideal.addf_def]
  rfl

/-- The same, as arrays. -/
theorem v7_eq (x1 : (⟨S8x2048x1024, .f32⟩ : BufTy).Contents (Elt Ideal)) (x5 : (⟨S1024x1024, .f32⟩ : BufTy).Contents (Elt Ideal))
    (x6 : (⟨S1024, .f32⟩ : BufTy).Contents (Elt Ideal)) :
    val_main_v7 (F := Ideal) x1 x5 x6 = Cert.Attn.proj x1 x5 x6 := by
  funext i
  obtain ⟨b, s, d, rfl⟩ : ∃ (b : Fin 8) (s : Fin 2048) (d : Fin 1024), i = ix3 b s d := ⟨i 0, i 1, i 2, eq_ix3 i⟩
  exact v7_at x1 x5 x6 b s d

/-- The value projection at (b, s, d). -/
theorem v11_at (x1 : (⟨S8x2048x1024, .f32⟩ : BufTy).Contents (Elt Ideal)) (x7 : (⟨S1024x1024, .f32⟩ : BufTy).Contents (Elt Ideal))
    (x8 : (⟨S1024, .f32⟩ : BufTy).Contents (Elt Ideal)) (b : Fin 8) (s : Fin 2048) (d : Fin 1024) :
    val_main_v11 (F := Ideal) x1 x7 x8 (ix3 b s d) = Cert.Attn.projAt x1 x7 x8 b s d := by
  have el : ∀ k : Fin 1024, lidx_main_v8 (ix3 b s d) k = ix3 b s k := fun k =>
    funext fun a => Fin.ext (by match a with | ⟨0, _⟩ => rfl | ⟨1, _⟩ => rfl | ⟨2, _⟩ => rfl)
  have er : ∀ k : Fin 1024, ridx_main_v8 (ix3 b s d) k = ix2 k d := fun k =>
    funext fun a => Fin.ext (by match a with | ⟨0, _⟩ => rfl | ⟨1, _⟩ => rfl)
  have eb : idx_main_v9 (idx_main_v10 (ix3 b s d)) = ix1 d :=
    funext fun a => Fin.ext (by match a with | ⟨0, _⟩ => rfl)
  rw [val_main_v11_apply, val_main_v8_apply, val_main_v10_apply, val_main_v9_apply, eb]
  simp only [el, er, Ideal.addf_def]
  rfl

/-- The same, as arrays. -/
theorem v11_eq (x1 : (⟨S8x2048x1024, .f32⟩ : BufTy).Contents (Elt Ideal)) (x7 : (⟨S1024x1024, .f32⟩ : BufTy).Contents (Elt Ideal))
    (x8 : (⟨S1024, .f32⟩ : BufTy).Contents (Elt Ideal)) :
    val_main_v11 (F := Ideal) x1 x7 x8 = Cert.Attn.proj x1 x7 x8 := by
  funext i
  obtain ⟨b, s, d, rfl⟩ : ∃ (b : Fin 8) (s : Fin 2048) (d : Fin 1024), i = ix3 b s d := ⟨i 0, i 1, i 2, eq_ix3 i⟩
  exact v11_at x1 x7 x8 b s d

end Cert.ReferenceIdeal.RefValue

end
-- ==== Proof.RefStages.lean ====
/-
  The reference's attention stages, entry by entry, against the specification's names: the masked, scaled scores;
  the row maximum (a fold of max from −∞, then once more against −∞); the shifted exponentials; the softmax weights.
  Each stage is read at explicit coordinates (b, q, k) from the stage before it, so no stage is ever opened twice.
-/
import proofs.«138484_j83872121356514_1_alg».proof.Proof.RefProj

noncomputable section

open scoped BigOperators

namespace Cert.ReferenceIdeal.RefValue

open Cert.ReferenceIdeal Cert.ReferenceIdeal.Gen Cert.ReferenceIdeal.Read Idealize.ShloMosaic Idealize.ShloMosaic.ValueIdx

/-- The score row (b, q) of the specification at the reference's arguments: the scale as 1 / sqrt 1024, the mask read
    at (b, k). -/
abbrev refScore (x0 x1 : (⟨S8x2048x1024, .f32⟩ : BufTy).Contents (Elt Ideal)) (x2 : (⟨S8x2048, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) (b : Fin 8) (q : Fin 2048) : Fin 2048 → EReal :=
  Cert.Attn.scoreAt Cert.Attn.scaleSqrt (Cert.Attn.proj x0 x3 x4) (Cert.Attn.proj x1 x5 x6) (fun b k => x2 (ix2 b k)) b q

/-- The masked, scaled scores at (b, q, k): the contraction of query row (b, q) with key row (b, k) over the feature
    axis, times the scalar 1 / sqrt 1024 broadcast everywhere, plus (1 − mask (b, k)) · (−10000) broadcast over q. -/
theorem v23_at (x0 x1 : (⟨S8x2048x1024, .f32⟩ : BufTy).Contents (Elt Ideal)) (x2 : (⟨S8x2048, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) (b : Fin 8) (q k : Fin 2048) :
    val_main_v23 (F := Ideal) x0 x1 x2 x3 x4 x5 x6 (ix3 b q k) = refScore x0 x1 x2 x3 x4 x5 x6 b q k := by
  have el : ∀ d : Fin 1024, lidx_main_v14 (ix3 b q k) d = ix3 b q d := fun d =>
    funext fun a => Fin.ext (by match a with | ⟨0, _⟩ => rfl | ⟨1, _⟩ => rfl | ⟨2, _⟩ => rfl)
  have er : ∀ d : Fin 1024, ridx_main_v14 (ix3 b q k) d = ix3 b k d := fun d =>
    funext fun a => Fin.ext (by match a with | ⟨0, _⟩ => rfl | ⟨1, _⟩ => rfl | ⟨2, _⟩ => rfl)
  have em : idx_main_v17 (idx_main_v22 (ix3 b q k)) = ix2 b k :=
    funext fun a => Fin.ext (by match a with | ⟨0, _⟩ => rfl | ⟨1, _⟩ => rfl)
  rw [val_main_v23_apply, val_main_v16_apply, val_main_v14_apply, val_main_v15_apply, val_main_v13_apply,
    val_main_v12_apply, val_main_cst_apply, val_main_cst_0_apply, val_main_v22_apply, val_main_v21_apply,
    val_main_v19_apply, val_main_v18_apply, val_main_v17_apply, val_main_v20_apply, val_main_cst_1_apply,
    val_main_cst_2_apply, em, v3_eq, v7_eq]
  simp only [el, er, Ideal.addf_def, Ideal.mulf_def, Ideal.subf_def, Ideal.hostDivf_def, Ideal.hostUnary_sqrt_def,
    Ideal.ofBits_def]
  rfl

/-- A maximum-reduce over the last axis of an [8, 2048, 2048] array, read at (b, q): the fold of max, from the
    initial value, over the 2048 entries of row (b, q). -/
theorem reduceMax_at (y : (⟨S8x2048x2048, .f32⟩ : BufTy).Contents (Elt Ideal)) (init : (⟨S_, .f32⟩ : BufTy).Contents (Elt Ideal))
    (h : S8x2048x2048.Reduces [2] S8x2048) (b : Fin 8) (q : Fin 2048) (S : Fin 2048 → EReal) (z : EReal)
    (hS : ∀ k : Fin 2048, y (ix3 b q k) = S k) (hinit : init (Shape.Idx.first h_S_) = z) :
    Host.reduce (FloatOps.maximumf (F := Ideal) (φ := .f32)) y init reducesTo_S8x2048x2048_S8x2048_d2 h_S_ (ix2 b q)
      = (Finset.univ : Finset (Fin 2048)).fold max z S := by
  have h1 := Host.reduce_eq_fold_single (α := EReal) (s := S8x2048x2048) (t := S8x2048) (a := 2) (u := S_)
    (FloatOps.maximumf (F := Ideal) (φ := .f32)) y init reducesTo_S8x2048x2048_S8x2048_d2 h h_S_ (ix2 b q)
  have e : (y ∘ h.lift (ix2 b q)) = S := funext fun k =>
    (congrArg y (funext fun a => Fin.ext (by match a with | ⟨0, _⟩ => rfl | ⟨1, _⟩ => rfl | ⟨2, _⟩ => rfl))).trans (hS k)
  rw [hinit, e] at h1
  exact h1

/-- The reduce-max of the scores at (b, q): the fold of max from −∞ over score row (b, q). -/
theorem v24_at (x0 x1 : (⟨S8x2048x1024, .f32⟩ : BufTy).Contents (Elt Ideal)) (x2 : (⟨S8x2048, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) (b : Fin 8) (q : Fin 2048) :
    val_main_v24 (F := Ideal) x0 x1 x2 x3 x4 x5 x6 (ix2 b q)
      = (Finset.univ : Finset (Fin 2048)).fold max Cert.Attn.negInf (refScore x0 x1 x2 x3 x4 x5 x6 b q) := by
  unfold val_main_v24
  exact reduceMax_at _ _ (by decide) b q _ _ (v23_at x0 x1 x2 x3 x4 x5 x6 b q) rfl

/-- The row maximum at (b, q) as the reference takes it: the reduce-max, then once more against −∞. -/
theorem v26_at (x0 x1 : (⟨S8x2048x1024, .f32⟩ : BufTy).Contents (Elt Ideal)) (x2 : (⟨S8x2048, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) (b : Fin 8) (q : Fin 2048) :
    val_main_v26 (F := Ideal) x0 x1 x2 x3 x4 x5 x6 (ix2 b q) = Cert.Attn.rowMax (refScore x0 x1 x2 x3 x4 x5 x6 b q) := by
  rw [val_main_v26_apply, val_main_v25_apply, val_main_cst_4_apply, v24_at]
  rfl

/-- The shifted exponentials at (b, q, k): exp of the score minus the row maximum, the latter broadcast back along k. -/
theorem v30_at (x0 x1 : (⟨S8x2048x1024, .f32⟩ : BufTy).Contents (Elt Ideal)) (x2 : (⟨S8x2048, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) (b : Fin 8) (q k : Fin 2048) :
    val_main_v30 (F := Ideal) x0 x1 x2 x3 x4 x5 x6 (ix3 b q k) = Cert.Attn.expAt (refScore x0 x1 x2 x3 x4 x5 x6 b q) k := by
  have e : idx_main_v27 (idx_main_v28 (ix3 b q k)) = ix2 b q :=
    funext fun a => Fin.ext (by match a with | ⟨0, _⟩ => rfl | ⟨1, _⟩ => rfl)
  rw [val_main_v30_apply, val_main_v29_apply, val_main_v28_apply, val_main_v27_apply, e, v26_at, v23_at]
  rfl

/-- The softmax weights at (b, q, k): the shifted exponential over the row's sum of them (the sum starts from the word
    of 0, the extended real 0), broadcast back along k. -/
theorem v34_at (x0 x1 : (⟨S8x2048x1024, .f32⟩ : BufTy).Contents (Elt Ideal)) (x2 : (⟨S8x2048, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) (b : Fin 8) (q k : Fin 2048) :
    val_main_v34 (F := Ideal) x0 x1 x2 x3 x4 x5 x6 (ix3 b q k) = Cert.Attn.probAt (refScore x0 x1 x2 x3 x4 x5 x6 b q) k := by
  have e : idx_main_v32 (idx_main_v33 (ix3 b q k)) = ix2 b q :=
    funext fun a => Fin.ext (by match a with | ⟨0, _⟩ => rfl | ⟨1, _⟩ => rfl)
  have es : ∀ k' : Fin 2048, idx_main_v31 (ix2 b q) k' = ix3 b q k' := fun k' =>
    funext fun a => Fin.ext (by match a with | ⟨0, _⟩ => rfl | ⟨1, _⟩ => rfl | ⟨2, _⟩ => rfl)
  rw [val_main_v34_apply, val_main_v33_apply, val_main_v32_apply, e, val_main_v31_apply, val_main_cst_5_apply, v30_at]
  simp only [es, v30_at, Ideal.ofBits_def, Ideal.ofBits_zero_f32, zero_add, Ideal.hostDivf_def]
  rfl

end Cert.ReferenceIdeal.RefValue

end
-- ==== Proof.RefSpec.lean ====
/-
  The reference program's result is the specification's cross attention at the scale 1 / sqrt 1024 and the key mask
  read at (b, k): the last contraction, of the softmax weights with the value projection over the key axis.
-/
import proofs.«138484_j83872121356514_1_alg».proof.Proof.RefStages

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference program's result is the specification: the softmax weights of score row (b, q) contracted with
    column d of the value projection over the key axis. -/
theorem ref_eq (x0 x1 : (⟨S8x2048x1024, .f32⟩ : BufTy).Contents (Elt Ideal)) (x2 : (⟨S8x2048, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal)) :
    val_main_v35 (F := Ideal) x0 x1 x2 x3 x4 x5 x6 x7 x8
      = Cert.Attn.crossAttn Cert.Attn.scaleSqrt x0 x1 (fun b k => x2 (ix2 b k)) x3 x4 x5 x6 x7 x8 := by
  funext i
  obtain ⟨b, q, d, rfl⟩ : ∃ (b : Fin 8) (q : Fin 2048) (d : Fin 1024), i = ix3 b q d := ⟨i 0, i 1, i 2, eq_ix3 i⟩
  have el : ∀ k : Fin 2048, lidx_main_v35 (ix3 b q d) k = ix3 b q k := fun k =>
    funext fun a => Fin.ext (by match a with | ⟨0, _⟩ => rfl | ⟨1, _⟩ => rfl | ⟨2, _⟩ => rfl)
  have er : ∀ k : Fin 2048, ridx_main_v35 (ix3 b q d) k = ix3 b k d := fun k =>
    funext fun a => Fin.ext (by match a with | ⟨0, _⟩ => rfl | ⟨1, _⟩ => rfl | ⟨2, _⟩ => rfl)
  rw [val_main_v35_apply, v11_eq]
  simp only [el, er, v34_at]
  rfl

end Cert.ReferenceIdeal.RefValue

end
-- ==== Proof.Scale.lean ====
/-
  The two spellings of the attention scale are one extended real.

  The word 0x3D000000 has sign 0, exponent field 122 and fraction 0, so it denotes 2^(122 − 127) = 1/32. The word
  0x44800000 denotes 2^(137 − 127) = 1024 and the word 0x3F800000 denotes 1; sqrt 1024 = 32 because 32 · 32 = 1024 and
  32 ≥ 0; and 1 divided by the nonzero real 32 is 1 · (1/32).
-/
import proofs.«138484_j83872121356514_1_alg».proof.Proof.Spec

noncomputable section

namespace Cert.Attn

open Idealize.ShloMosaic

theorem ofBits_one : Ideal.ofBits .f32 0x3F800000#32 = ((1 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem sqrt_1024 : Real.sqrt 1024 = 32 := by
  rw [show (1024 : ℝ) = 32 * 32 by norm_num]
  exact Real.sqrt_mul_self (by norm_num)

/-- 1 / sqrt 1024, as the reference computes the scale, is the kernel's word for 1/32. -/
theorem scale_eq : scaleSqrt = scaleWord := by
  unfold scaleSqrt scaleWord
  rw [ofBits_one, ofBits_1024, ofBits_inv32, Ideal.sqrt_coe, if_neg (by norm_num), sqrt_1024,
    Ideal.div_coe (by norm_num : (32 : ℝ) ≠ 0)]
  rw [← EReal.coe_mul]
  norm_num

end Cert.Attn

end
-- ==== Proof.lean ====
/-
  The certificate: a pipelined single-head cross-attention kernel against its plain reference.

  The kernel program projects the query activations and, twice, the key/value activations through weight matrices with
  a bias (three launches of one linear kernel over flattened activations), then launches an attention kernel over
  (batch, query block): scores of a query block against all keys, scaled by 1/32, plus (1 − mask) · (−10000); a softmax
  over the keys; the weights against the values. The reference computes the same map with whole-array operations and
  writes the scale as 1 / sqrt 1024.

  On the extended reals both results are, entry by entry, one function of the nine arguments (the specification
  module): the kernel side by reading each call's output array back from its blocks and tracing the arrays through
  the program; the reference side by reading its operations one at a time; the two scales meet because sqrt 1024 = 32
  and the word 0x3D000000 is 2⁻⁵. No law that fails at an infinity is used, so the inputs' finiteness is never opened.
  The frames are the programs' runs with the result forgotten, and the idealization changed no operation.
-/
import proofs.«138484_j83872121356514_1_alg».proof.Defs
import proofs.«138484_j83872121356514_1_alg».proof.Proof.Gen.Kernel
import proofs.«138484_j83872121356514_1_alg».proof.Proof.Gen.Kernel.Skeleton
import proofs.«138484_j83872121356514_1_alg».proof.Proof.Gen.Kernel.Launch
import proofs.«138484_j83872121356514_1_alg».proof.Proof.Gen.Kernel.Points
import proofs.«138484_j83872121356514_1_alg».proof.Proof.Gen.Kernel.Frame
import proofs.«138484_j83872121356514_1_alg».proof.Proof.Gen.KernelIdeal
import proofs.«138484_j83872121356514_1_alg».proof.Proof.Gen.KernelIdeal.Skeleton
import proofs.«138484_j83872121356514_1_alg».proof.Proof.Gen.KernelIdeal.Launch
import proofs.«138484_j83872121356514_1_alg».proof.Proof.Gen.KernelIdeal.Points
import proofs.«138484_j83872121356514_1_alg».proof.Proof.Gen.KernelIdeal.Frame
import proofs.«138484_j83872121356514_1_alg».proof.Proof.Gen.ReferenceIdeal
import proofs.«138484_j83872121356514_1_alg».proof.Proof.Gen.ReferenceIdeal.Run
import proofs.«138484_j83872121356514_1_alg».proof.Proof.Gen.ReferenceIdeal.Read
import proofs.«138484_j83872121356514_1_alg».proof.Proof.Gen.Pre_finite_inputs
import proofs.«138484_j83872121356514_1_alg».proof.Proof.RunValue
import proofs.«138484_j83872121356514_1_alg».proof.Proof.Result
import proofs.«138484_j83872121356514_1_alg».proof.Proof.RefSpec
import proofs.«138484_j83872121356514_1_alg».proof.Proof.Scale
import Idealize.ShloMosaic.Adequacy
import Idealize.ShloMosaic.Init

noncomputable section

namespace Cert.Proof

open Idealize.ShloMosaic Idealize.SL.Sem Cert.Kernel

/-- Both idealized programs, run from memories that agree on the arguments, end with the result buffer at cross
    attention of the arguments and the arguments unchanged. -/
theorem algebraic : Cert.algebraic_KernelIdeal_ReferenceIdeal := by
  intro m ρ m' ρ' _ hagree
  refine ⟨fun c => Cert.Attn.crossAttn Cert.Attn.scaleWord (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (fun b k => (m ((c.tc : Thread Cert.KernelIdeal.nD Cert.KernelIdeal.τ).loc Cert.KernelIdeal.main_arg2)) (Idealize.ShloMosaic.ValueIdx.ix2 b k)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Result.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v35_eq, Cert.ReferenceIdeal.RefValue.ref_eq, Cert.Attn.scale_eq,
      h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
